-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S32 .f32) (main_arg7 : FVec F S32x10 .f32) (main_arg8 : FVec F S10 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x10 .f32 := Host.absf main_arg7
  let main_cst_8 : FVec F S_ .f32 := constant S_ .f32 0x7F800000#32
  let main_v25 : FVec F S32x10 .f32 := broadcastInDim S32x10 ![] bcast_S_S32x10 main_cst_8
  let main_v26 : IVec S32x10 1 := cmpf .olt main_v24 main_v25
  let main_c_9 : IVec S_ 1 := constantI S_ 1 1#1
  let main_v27 : IVec S_ 1 := (fun x v => Host.reduce IntOp.andi x v reducesTo_S32x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x64 .f32) (main_arg4 : FVec F S64 .f32) (main_arg5 : FVec F S64x32 .f32) (main_arg6 : FVec F S32 .f32) (main_arg7 : FVec F S32x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩
abbrev S5000x1 : Shape := ⟨2, ![5000, 1]⟩
abbrev S100000x32 : Shape := ⟨2, ![100000, 32]⟩
abbrev S5000x32 : Shape := ⟨2, ![5000, 32]⟩
abbrev S1600000x32 : Shape := ⟨2, ![1600000, 32]⟩
abbrev S1x32 : Shape := ⟨2, ![1, 32]⟩
abbrev S1x10 : Shape := ⟨2, ![1, 10]⟩
abbrev S100000x10 : Shape := ⟨2, ![100000, 10]⟩
abbrev S5000x10 : Shape := ⟨2, ![5000, 10]⟩

abbrev nBuf : Space → Nat
  | .hbm => 79
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x10, .f32⟩
  | .hbm, ⟨8, _⟩ => ⟨S10, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x32, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x32, .f32⟩
  | .hbm, ⟨68, _⟩ => ⟨S1600000x1, .f32⟩
  | .hbm, ⟨69, _⟩ => ⟨S1600000x32, .f32⟩
  | .hbm, ⟨70, _⟩ => ⟨S1600000x32, .f32⟩
  | .hbm, ⟨71, _⟩ => ⟨S_, .f32⟩
  | .hbm, ⟨72, _⟩ => ⟨S100000x32, .f32⟩
  | .hbm, ⟨73, _⟩ => ⟨S1600000x1, .i32⟩
  | .hbm, ⟨74, _⟩ => ⟨S100000x32, .f32⟩
  | .hbm, ⟨75, _⟩ => ⟨S1x32, .f32⟩
  | .hbm, ⟨76, _⟩ => ⟨S100000x32, .f32⟩
  | .hbm, ⟨77, _⟩ => ⟨S1x10, .f32⟩
  | .hbm, ⟨78, _⟩ => ⟨S100000x10, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x1, .f32⟩
  | .local _ .vmem, ⟨24, _⟩ => ⟨S5000x1, .f32⟩
  | .local _ .vmem, ⟨25, _⟩ => ⟨S1x32, .f32⟩
  | .local _ .vmem, ⟨26, _⟩ => ⟨S5000x32, .f32⟩
  | .local _ .vmem, ⟨27, _⟩ => ⟨S5000x32, .f32⟩
  | .local _ .vmem, ⟨28, _⟩ => ⟨S5000x32, .f32⟩
  | .local _ .vmem, ⟨29, _⟩ => ⟨S5000x32, .f32⟩
  | .local _ .vmem, ⟨30, _⟩ => ⟨S32x10, .f32⟩
  | .local _ .vmem, ⟨31, _⟩ => ⟨S1x10, .f32⟩
  | .local _ .vmem, ⟨32, _⟩ => ⟨S5000x10, .f32⟩
  | .local _ .vmem, ⟨33, _⟩ => ⟨S5000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x10 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S10_S1x10 : S10.ShapeCasts S1x10
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x10_S5000x10_1_0_0_1_n_n_wf : DotDims.WF S5000x32 S32x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x32.size a ≤ S100000x32.size a
  hwx3_4 : ∀ i : grid3.Coords, EltTy.bits .f32 = 32 ∨ (Rect.block (s := S100000x32) S5000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x10.size a ≤ S32x10.size a
  hwx4_1 : ∀ i : grid4.Coords, EltTy.bits .f32 = 32 ∨ (Rect.block (s := S32x10) S32x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x10.size a ≤ S100000x10.size a
  hwx4_3 : ∀ i : grid4.Coords, EltTy.bits .f32 = 32 ∨ (Rect.block (s := S100000x10) S5000x10.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x10_S5000x10_1_0_0_1_n_n : DotDims S5000x32 S32x10 S5000x10 where
  lhsContracting := [1]
  rhsContracting := [0]
  lhsNonContracting := [0]
  rhsNonContracting := [1]
  lhsBatch := []
  rhsBatch := []
  wf := dot_S5000x32_S32x10_S5000x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v52) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S5000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v54) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v55) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S5000x10.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩
abbrev S100000x10 : Shape := ⟨2, ![100000, 10]⟩
abbrev S1x10 : Shape := ⟨2, ![1, 10]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x10, .f32⟩
  | .hbm, ⟨8, _⟩ => ⟨S10, .f32⟩
  | .hbm, ⟨9, _⟩ => ⟨S100000x64, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S1600000x1, .f32⟩
  | .hbm, ⟨49, _⟩ => ⟨S1600000x64, .f32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000, .f32⟩
  | .hbm, ⟨56, _⟩ => ⟨S100000x1, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x32, .f32⟩
  | .hbm, ⟨67, _⟩ => ⟨S_, .f32⟩
  | .hbm, ⟨68, _⟩ => ⟨S1600000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000, .f32⟩
  | .hbm, ⟨95, _⟩ => ⟨S1600000, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x32, .f32⟩
  | .hbm, ⟨105, _⟩ => ⟨S1600000x1, .f32⟩
  | .hbm, ⟨106, _⟩ => ⟨S1600000x32, .f32⟩
  | .hbm, ⟨107, _⟩ => ⟨S1600000x32, .f32⟩
  | .hbm, ⟨108, _⟩ => ⟨S_, .f32⟩
  | .hbm, ⟨109, _⟩ => ⟨S100000x32, .f32⟩
  | .hbm, ⟨110, _⟩ => ⟨S1600000x1, .i32⟩
  | .hbm, ⟨111, _⟩ => ⟨S100000x32, .f32⟩
  | .hbm, ⟨112, _⟩ => ⟨S100000, .f32⟩
  | .hbm, ⟨113, _⟩ => ⟨S100000x1, .f32⟩
  | .hbm, ⟨114, _⟩ => ⟨S100000x32, .f32⟩
  | .hbm, ⟨115, _⟩ => ⟨S100000x32, .f32⟩
  | .hbm, ⟨116, _⟩ => ⟨S100000x32, .f32⟩
  | .hbm, ⟨117, _⟩ => ⟨S1x32, .f32⟩
  | .hbm, ⟨118, _⟩ => ⟨S100000x32, .f32⟩
  | .hbm, ⟨119, _⟩ => ⟨S100000x32, .f32⟩
  | .hbm, ⟨120, _⟩ => ⟨S_, .f32⟩
  | .hbm, ⟨121, _⟩ => ⟨S100000x32, .f32⟩
  | .hbm, ⟨122, _⟩ => ⟨S100000x32, .f32⟩
  | .hbm, ⟨123, _⟩ => ⟨S100000x10, .f32⟩
  | .hbm, ⟨124, _⟩ => ⟨S1x10, .f32⟩
  | .hbm, ⟨125, _⟩ => ⟨S100000x10, .f32⟩
  | .hbm, ⟨126, _⟩ => ⟨S100000x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_c_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_15 : Ref sig .tc := ⟨.hbm, 96, rfl⟩
abbrev main_v68 : Ref sig .tc := ⟨.hbm, 97, rfl⟩
abbrev main_v69 : Ref sig .tc := ⟨.hbm, 98, rfl⟩
abbrev main_c_16 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call1_cst : Ref sig .tc := ⟨.hbm, 120, rfl⟩
abbrev main_call1_v0 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x10_S100000x10_1_0_0_1_n_n_wf : DotDims.WF S100000x32 S32x10 S100000x10 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x10_S100000x10_1_0_0_1_n_n : DotDims S100000x32 S32x10 S100000x10 where
  lhsContracting := [1]
  rhsContracting := [0]
  lhsNonContracting := [0]
  rhsNonContracting := [1]
  lhsBatch := []
  rhsBatch := []
  wf := dot_S100000x32_S32x10_S100000x10_1_0_0_1_n_n_wf

class Facts : Prop extends Facts₀ where

variable [Facts]
-- ==== Proof.KRun.lean ====
/-
  The kernel program's run with every array NAMED at the end: on every core, every weakly fair execution of @main
  terminates without a fault, and each buffer that lives for the whole program ends at the contents the last segment
  boundary gives it — the fold of the host stretches' operations and of the five regions' write-backs from the launch
  memory. The frame claim keeps only the argument arrays of this; the value claim reads the two result arrays off it.
-/
import proofs.«135825_j5686536700269_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every buffer of the TensorCore that is not scoped to a region ends, on every core, at the last boundary's
    contents `W9`: the segments' chain launched on `m`, the last thread state read against the final state. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W9 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c _ (mem_uc b hb))

end Cert.KernelIdeal.Hand

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Spec.lean ====
/-
  The dense layers of a two-layer graph convolution with a linear head, each as ONE function of whole arrays, read
  entry by entry on the extended reals.

  * `mm x w`: the matrix product; entry (r, c) is the sum over q of x(r, q) · w(q, c).
  * `comb agg h d b`: what a convolution layer does to a node's row after the neighbours' messages were summed into
    `agg`: entry (r, c) is max((agg(r, c) + h(r, c) · (d(r) · d(r))) + b(c), 0), with `d` the column [n, 1] of
    inverse square roots of the degrees and `b` the bias as a row [1, c].
  * `mmb x w b`: the linear head; entry (r, c) is the product's entry plus b(c), `b` a row [1, c].

  Nothing here mentions a program: the kernel's blocks and the reference's host operations are each shown to compute
  these functions, in other modules.
-/
import Idealize.ShloMosaic.Lib.ValueIdx
import Idealize.ShloMosaic.PureOps.Ideal

noncomputable section

namespace Cert.Spec

open Idealize.ShloMosaic Idealize.ShloMosaic.ValueIdx

/-- Row `r` of an index of an [n, c] array, as a number below `n`. -/
abbrev row {n c : ℕ} (i : (⟨2, ![n, c]⟩ : Shape).Idx) : Fin n := ⟨(i 0).val, (i 0).isLt⟩
/-- Column `c` of an index of an [n, c] array, as a number below `c`. -/
abbrev col {n c : ℕ} (i : (⟨2, ![n, c]⟩ : Shape).Idx) : Fin c := ⟨(i 1).val, (i 1).isLt⟩

/-- The matrix product: entry (r, c) is the sum over q of x(r, q) · w(q, c). -/
def mm {n k c : ℕ} (x : (⟨2, ![n, k]⟩ : Shape).Idx → EReal) (w : (⟨2, ![k, c]⟩ : Shape).Idx → EReal) :
    (⟨2, ![n, c]⟩ : Shape).Idx → EReal :=
  fun i => ∑ q : Fin k, x (ix2 (row i) q) * w (ix2 q (col i))

/-- A convolution layer's combine step: max((agg + h · (d · d)) + b, 0), the column `d` read at the row, the row `b` at
    the column. -/
def comb {n c : ℕ} (agg h : (⟨2, ![n, c]⟩ : Shape).Idx → EReal) (d : (⟨2, ![n, 1]⟩ : Shape).Idx → EReal)
    (b : (⟨2, ![1, c]⟩ : Shape).Idx → EReal) : (⟨2, ![n, c]⟩ : Shape).Idx → EReal :=
  fun i => max ((agg i + h i * (d (ix2 (row i) (0 : Fin 1)) * d (ix2 (row i) (0 : Fin 1)))) + b (ix2 (0 : Fin 1) (col i)))
    (Ideal.ofBits .f32 0x00000000#32)

/-- The linear head: the product's entry plus the bias row at the column. -/
def mmb {n k c : ℕ} (x : (⟨2, ![n, k]⟩ : Shape).Idx → EReal) (w : (⟨2, ![k, c]⟩ : Shape).Idx → EReal)
    (b : (⟨2, ![1, c]⟩ : Shape).Idx → EReal) : (⟨2, ![n, c]⟩ : Shape).Idx → EReal :=
  fun i => mm x w i + b (ix2 (0 : Fin 1) (col i))

/-- An index of a rank-2 array is the pair of its row and column. -/
theorem eq_row_col {n c : ℕ} (i : (⟨2, ![n, c]⟩ : Shape).Idx) : i = ix2 (row i) (col i) :=
  funext fun a => Fin.ext (match a with
    | ⟨0, _⟩ => rfl
    | ⟨1, _⟩ => rfl)

/-! ## A row block of the operands gives the row block of the result

The left operand (or every row-wise operand) restricted to rows `off … off + n' - 1`, the result read at a row `y` of
the block, is the whole-array result at row `off + y`. -/

/-- The product of a row block with the whole right operand is the row block of the product. -/
theorem mm_rows {n n' k c : ℕ} (X : (⟨2, ![n, k]⟩ : Shape).Idx → EReal) (x0 : (⟨2, ![n', k]⟩ : Shape).Idx → EReal)
    (W w1 : (⟨2, ![k, c]⟩ : Shape).Idx → EReal) (off : ℕ)
    (j : (⟨2, ![n', c]⟩ : Shape).Idx) (i : (⟨2, ![n, c]⟩ : Shape).Idx)
    (hi0 : (i 0).val = off + (j 0).val) (hi1 : (i 1).val = (j 1).val)
    (hx : ∀ (y : (⟨2, ![n', k]⟩ : Shape).Idx) (z : (⟨2, ![n, k]⟩ : Shape).Idx),
      (z 0).val = off + (y 0).val → (z 1).val = (y 1).val → x0 y = X z)
    (hw : ∀ y, w1 y = W y) :
    mm x0 w1 j = mm X W i := by
  unfold mm
  refine Finset.sum_congr rfl fun q _ => ?_
  rw [hx (ix2 (row j) q) (ix2 (row i) q) hi0 rfl, hw]
  exact congrArg (fun u => X (ix2 (row i) q) * W (ix2 q u)) (Fin.ext hi1.symm)

/-- The combine step on a row block is the row block of the combine step. -/
theorem comb_rows {n n' c : ℕ} (AGG H : (⟨2, ![n, c]⟩ : Shape).Idx → EReal) (D : (⟨2, ![n, 1]⟩ : Shape).Idx → EReal)
    (B b1 : (⟨2, ![1, c]⟩ : Shape).Idx → EReal)
    (agg h : (⟨2, ![n', c]⟩ : Shape).Idx → EReal) (d : (⟨2, ![n', 1]⟩ : Shape).Idx → EReal) (off : ℕ)
    (j : (⟨2, ![n', c]⟩ : Shape).Idx) (i : (⟨2, ![n, c]⟩ : Shape).Idx)
    (hi0 : (i 0).val = off + (j 0).val) (hi1 : (i 1).val = (j 1).val)
    (hagg : ∀ (y : (⟨2, ![n', c]⟩ : Shape).Idx) (z : (⟨2, ![n, c]⟩ : Shape).Idx),
      (z 0).val = off + (y 0).val → (z 1).val = (y 1).val → agg y = AGG z)
    (hh : ∀ (y : (⟨2, ![n', c]⟩ : Shape).Idx) (z : (⟨2, ![n, c]⟩ : Shape).Idx),
      (z 0).val = off + (y 0).val → (z 1).val = (y 1).val → h y = H z)
    (hd : ∀ (y : (⟨2, ![n', 1]⟩ : Shape).Idx) (z : (⟨2, ![n, 1]⟩ : Shape).Idx),
      (z 0).val = off + (y 0).val → (z 1).val = (y 1).val → d y = D z)
    (hb : ∀ y, b1 y = B y) :
    comb agg h d b1 j = comb AGG H D B i := by
  unfold comb
  rw [hagg j i hi0 hi1, hh j i hi0 hi1, hd (ix2 (row j) (0 : Fin 1)) (ix2 (row i) (0 : Fin 1)) hi0 rfl, hb]
  exact congrArg (fun u => max ((AGG i + H i * (D (ix2 (row i) (0 : Fin 1)) * D (ix2 (row i) (0 : Fin 1)))) + B (ix2 (0 : Fin 1) u))
    (Ideal.ofBits .f32 0x00000000#32)) (Fin.ext hi1.symm)

/-- The head on a row block is the row block of the head. -/
theorem mmb_rows {n n' k c : ℕ} (X : (⟨2, ![n, k]⟩ : Shape).Idx → EReal) (x0 : (⟨2, ![n', k]⟩ : Shape).Idx → EReal)
    (W w1 : (⟨2, ![k, c]⟩ : Shape).Idx → EReal) (B b1 : (⟨2, ![1, c]⟩ : Shape).Idx → EReal) (off : ℕ)
    (j : (⟨2, ![n', c]⟩ : Shape).Idx) (i : (⟨2, ![n, c]⟩ : Shape).Idx)
    (hi0 : (i 0).val = off + (j 0).val) (hi1 : (i 1).val = (j 1).val)
    (hx : ∀ (y : (⟨2, ![n', k]⟩ : Shape).Idx) (z : (⟨2, ![n, k]⟩ : Shape).Idx),
      (z 0).val = off + (y 0).val → (z 1).val = (y 1).val → x0 y = X z)
    (hw : ∀ y, w1 y = W y) (hb : ∀ y, b1 y = B y) :
    mmb x0 w1 b1 j = mmb X W B i := by
  unfold mmb
  rw [mm_rows X x0 W w1 off j i hi0 hi1 hx hw, hb]
  exact congrArg (fun u => mm X W i + B (ix2 (0 : Fin 1) u)) (Fin.ext hi1.symm)

end Cert.Spec

end
-- ==== Proof.KPay.lean ====
/-
  What each kernel body computes from the blocks it loads, as one function of those blocks at the exact reals:
  the three matrix-product bodies are the matrix product of the row block with the whole right operand (the change of
  float format before the product is the identity, and a product into a zero accumulator is the plain sum); the two
  combine bodies are max((agg + h · (d · d)) + b, 0) with the degree column and the bias row broadcast along the block;
  the head's body is the product plus the bias row.
-/
import proofs.«135825_j5686536700269_1_alg».proof.Proof.Gen.KernelIdeal.Skeleton
import proofs.«135825_j5686536700269_1_alg».proof.Proof.LibPlainDot
import proofs.«135825_j5686536700269_1_alg».proof.Proof.LibLayoutCol
import proofs.«135825_j5686536700269_1_alg».proof.Proof.Spec
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The three block products' dimension records -/

/-- The left operand's index at output entry `j` and contraction coordinate `r`: row of `j`, column `r`. -/
theorem lhs_k0 (j : S5000x64.Idx) (r : dot_S5000x128_S128x64_S5000x64_1_0_0_1_n_n.contr.Idx) :
    dot_S5000x128_S128x64_S5000x64_1_0_0_1_n_n.lhsIdx j r = ix2 (Spec.row j) (ValueIdx.contrEquiv1 dot_S5000x128_S128x64_S5000x64_1_0_0_1_n_n 128 rfl rfl r) :=
  funext fun a => Fin.ext (by
    match a with
    | ⟨0, _⟩ =>
      show (dot_S5000x128_S128x64_S5000x64_1_0_0_1_n_n.lhsIdx j r 0).val = (j 0).val
      unfold DotDims.lhsIdx
      rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
      rfl
    | ⟨1, _⟩ => exact dot_S5000x128_S128x64_S5000x64_1_0_0_1_n_n.lhsIdx_val_of_single rfl j r)

/-- The right operand's index at output entry `j` and contraction coordinate `r`: row `r`, column of `j`. -/
theorem rhs_k0 (j : S5000x64.Idx) (r : dot_S5000x128_S128x64_S5000x64_1_0_0_1_n_n.contr.Idx) :
    dot_S5000x128_S128x64_S5000x64_1_0_0_1_n_n.rhsIdx j r = ix2 (ValueIdx.contrEquiv1 dot_S5000x128_S128x64_S5000x64_1_0_0_1_n_n 128 rfl rfl r) (Spec.col j) :=
  funext fun a => Fin.ext (by
    match a with
    | ⟨0, _⟩ => exact dot_S5000x128_S128x64_S5000x64_1_0_0_1_n_n.rhsIdx_val_of_single rfl j r
    | ⟨1, _⟩ =>
      show (dot_S5000x128_S128x64_S5000x64_1_0_0_1_n_n.rhsIdx j r 1).val = (j 1).val
      unfold DotDims.rhsIdx
      rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
      rfl)

/-- The left operand's index at output entry `j` and contraction coordinate `r`: row of `j`, column `r`. -/
theorem lhs_k2 (j : S5000x32.Idx) (r : dot_S5000x64_S64x32_S5000x32_1_0_0_1_n_n.contr.Idx) :
    dot_S5000x64_S64x32_S5000x32_1_0_0_1_n_n.lhsIdx j r = ix2 (Spec.row j) (ValueIdx.contrEquiv1 dot_S5000x64_S64x32_S5000x32_1_0_0_1_n_n 64 rfl rfl r) :=
  funext fun a => Fin.ext (by
    match a with
    | ⟨0, _⟩ =>
      show (dot_S5000x64_S64x32_S5000x32_1_0_0_1_n_n.lhsIdx j r 0).val = (j 0).val
      unfold DotDims.lhsIdx
      rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
      rfl
    | ⟨1, _⟩ => exact dot_S5000x64_S64x32_S5000x32_1_0_0_1_n_n.lhsIdx_val_of_single rfl j r)

/-- The right operand's index at output entry `j` and contraction coordinate `r`: row `r`, column of `j`. -/
theorem rhs_k2 (j : S5000x32.Idx) (r : dot_S5000x64_S64x32_S5000x32_1_0_0_1_n_n.contr.Idx) :
    dot_S5000x64_S64x32_S5000x32_1_0_0_1_n_n.rhsIdx j r = ix2 (ValueIdx.contrEquiv1 dot_S5000x64_S64x32_S5000x32_1_0_0_1_n_n 64 rfl rfl r) (Spec.col j) :=
  funext fun a => Fin.ext (by
    match a with
    | ⟨0, _⟩ => exact dot_S5000x64_S64x32_S5000x32_1_0_0_1_n_n.rhsIdx_val_of_single rfl j r
    | ⟨1, _⟩ =>
      show (dot_S5000x64_S64x32_S5000x32_1_0_0_1_n_n.rhsIdx j r 1).val = (j 1).val
      unfold DotDims.rhsIdx
      rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
      rfl)

/-- The left operand's index at output entry `j` and contraction coordinate `r`: row of `j`, column `r`. -/
theorem lhs_k4 (j : S5000x10.Idx) (r : dot_S5000x32_S32x10_S5000x10_1_0_0_1_n_n.contr.Idx) :
    dot_S5000x32_S32x10_S5000x10_1_0_0_1_n_n.lhsIdx j r = ix2 (Spec.row j) (ValueIdx.contrEquiv1 dot_S5000x32_S32x10_S5000x10_1_0_0_1_n_n 32 rfl rfl r) :=
  funext fun a => Fin.ext (by
    match a with
    | ⟨0, _⟩ =>
      show (dot_S5000x32_S32x10_S5000x10_1_0_0_1_n_n.lhsIdx j r 0).val = (j 0).val
      unfold DotDims.lhsIdx
      rw [dif_neg (show ¬(0 : Fin S5000x32.rank) ∈ dot_S5000x32_S32x10_S5000x10_1_0_0_1_n_n.lhsBatch by decide), dif_pos (show (0 : Fin S5000x32.rank) ∈ dot_S5000x32_S32x10_S5000x10_1_0_0_1_n_n.lhsNonContracting by decide)]
      rfl
    | ⟨1, _⟩ => exact dot_S5000x32_S32x10_S5000x10_1_0_0_1_n_n.lhsIdx_val_of_single rfl j r)

/-- The right operand's index at output entry `j` and contraction coordinate `r`: row `r`, column of `j`. -/
theorem rhs_k4 (j : S5000x10.Idx) (r : dot_S5000x32_S32x10_S5000x10_1_0_0_1_n_n.contr.Idx) :
    dot_S5000x32_S32x10_S5000x10_1_0_0_1_n_n.rhsIdx j r = ix2 (ValueIdx.contrEquiv1 dot_S5000x32_S32x10_S5000x10_1_0_0_1_n_n 32 rfl rfl r) (Spec.col j) :=
  funext fun a => Fin.ext (by
    match a with
    | ⟨0, _⟩ => exact dot_S5000x32_S32x10_S5000x10_1_0_0_1_n_n.rhsIdx_val_of_single rfl j r
    | ⟨1, _⟩ =>
      show (dot_S5000x32_S32x10_S5000x10_1_0_0_1_n_n.rhsIdx j r 1).val = (j 1).val
      unfold DotDims.rhsIdx
      rw [dif_neg (show ¬(1 : Fin S32x10.rank) ∈ dot_S5000x32_S32x10_S5000x10_1_0_0_1_n_n.rhsBatch by decide), dif_pos (show (1 : Fin S32x10.rank) ∈ dot_S5000x32_S32x10_S5000x10_1_0_0_1_n_n.rhsNonContracting by decide)]
      rfl)

/-! ## The product bodies -/

/-- The first layer's feature transform on a row block: the block times the weights. -/
theorem pay0_eq (x0 : Vec Ideal S5000x128 .f32) (x1 : Vec Ideal S128x64 .f32) :
    k0_pay1 (F := Ideal) x0 x1 = Spec.mm x0 x1 := by
  funext j
  unfold k0_pay1
  exact Cert.LibPlainDot.matmul_zero_apply dot_S5000x128_S128x64_S5000x64_1_0_0_1_n_n none 128 rfl rfl _ _ j
    (fun q => ix2 (Spec.row j) q) (fun q => ix2 q (Spec.col j)) (lhs_k0 j) (rhs_k0 j)

/-- The second layer's feature transform on a row block. -/
theorem pay2_eq (x0 : Vec Ideal S5000x64 .f32) (x1 : Vec Ideal S64x32 .f32) :
    k2_pay1 (F := Ideal) x0 x1 = Spec.mm x0 x1 := by
  funext j
  unfold k2_pay1
  simp only [shapeCast_self]
  exact Cert.LibPlainDot.matmul_zero_apply dot_S5000x64_S64x32_S5000x32_1_0_0_1_n_n none 64 rfl rfl _ _ j
    (fun q => ix2 (Spec.row j) q) (fun q => ix2 q (Spec.col j)) (lhs_k2 j) (rhs_k2 j)

/-- The head on a row block: the block times the weights, plus the bias row. -/
theorem pay4_eq (x0 : Vec Ideal S5000x32 .f32) (x1 : Vec Ideal S32x10 .f32) (x2 : Vec Ideal S1x10 .f32) :
    k4_pay1 (F := Ideal) x0 x1 x2 = Spec.mmb x0 x1 x2 := by
  funext j
  obtain ⟨p, q, rfl⟩ : ∃ (p : Fin 5000) (q : Fin 10), j = ix2 p q := ⟨Spec.row j, Spec.col j, Spec.eq_row_col j⟩
  unfold k4_pay1 Spec.mmb Spec.mm
  simp only [shapeCast_self, addf_apply]
  rw [broadcastTo_1b_ab_apply]
  exact congrArg (· + x2 (ix2 (0 : Fin 1) q))
    (Cert.LibPlainDot.matmul_zero_apply dot_S5000x32_S32x10_S5000x10_1_0_0_1_n_n none 32 rfl rfl _ _ (ix2 p q)
      (fun r => ix2 p r) (fun r => ix2 r q) (lhs_k4 (ix2 p q)) (rhs_k4 (ix2 p q)))

/-! ## The combine bodies -/

/-- The first layer's combine step on a row block. -/
theorem pay1_eq (v0 : Vec Ideal S5000x1 .f32) (v2 v4 : Vec Ideal S5000x64 .f32) (v10 : Vec Ideal S1x64 .f32) :
    k1_pay1 (F := Ideal) v0 v2 v4 v10 = Spec.comb v2 v4 v0 v10 := by
  funext j
  obtain ⟨p, q, rfl⟩ : ∃ (p : Fin 5000) (q : Fin 64), j = ix2 p q := ⟨Spec.row j, Spec.col j, Spec.eq_row_col j⟩
  unfold k1_pay1 Spec.comb
  simp only [shapeCast_self, maximumf_apply, addf_apply, mulf_apply, broadcast_apply]
  rw [broadcastTo_a1_ab_apply, broadcastTo_1b_ab_apply]
  rfl

/-- The second layer's combine step on a row block. -/
theorem pay3_eq (v0 : Vec Ideal S5000x1 .f32) (v2 v4 : Vec Ideal S5000x32 .f32) (v10 : Vec Ideal S1x32 .f32) :
    k3_pay1 (F := Ideal) v0 v2 v4 v10 = Spec.comb v2 v4 v0 v10 := by
  funext j
  obtain ⟨p, q, rfl⟩ : ∃ (p : Fin 5000) (q : Fin 32), j = ix2 p q := ⟨Spec.row j, Spec.col j, Spec.eq_row_col j⟩
  unfold k3_pay1 Spec.comb
  simp only [shapeCast_self, maximumf_apply, addf_apply, mulf_apply, broadcast_apply]
  rw [broadcastTo_a1_ab_apply, broadcastTo_1b_ab_apply]
  rfl

end Cert.KernelIdeal.Body

end
-- ==== Proof.Region0.lean ====
/-
  REGION 0: the first layer's feature transform, x · W1.
  The body multiplies a block of 5000 rows of x by the whole of W1.
  The region's grid has 20 points; at point t every row-blocked window holds rows 5000·t … 5000·t + 4999 of its array
  and a whole-array window holds its array, so what point t writes back is the row block t of ONE function of the
  arrays as the region finds them, and the 20 row blocks cover the result array.
-/
import proofs.«135825_j5686536700269_1_alg».proof.Proof.Gen.KernelIdeal.Frame
import proofs.«135825_j5686536700269_1_alg».proof.Proof.KPay
import proofs.«135825_j5686536700269_1_alg».proof.Proof.Spec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole-array window's (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is row block `t` of the layer's function of the arrays as the region finds them. -/
theorem flushed_eq (c : Dev nD) (t : Fin cfg0.N) :
    (dat0 V c).flushed 2 t = ((cfg0.win 2).blk t).view.read (Elt Ideal) (Spec.mm (n := 100000) (k := 128) (c := 64) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e00, e01, e10, e11, e20, e21⟩ := idx t
  funext j
  show k0_pay1 (F := Ideal) (iblk0 V c 0 t) (iblk0 V c 1 t) j = Spec.mm (n := 100000) (k := 128) (c := 64) (V c main_arg0) (V c main_arg3) (((cfg0.win 2).blk t).view.emb j)
  refine (congrFun (Body.pay0_eq (iblk0 V c 0 t) (iblk0 V c 1 t)) j).trans ?_
  refine Spec.mm_rows (V c main_arg0) (iblk0 V c 0 t) (V c main_arg3) (iblk0 V c 1 t) (t.val * 5000) j _ ?_ ?_ ?_ ?_
  · show win0_2.index t (0 : Fin 2) * 5000 + 1 * (j 0).val = t.val * 5000 + (j 0).val; rw [e20]; omega
  · show win0_2.index t (1 : Fin 2) * 64 + 1 * (j 1).val = (j 1).val; rw [e21]; omega
  · intro y z hz0 hz1
    unfold iblk0
    rw [View.read_apply]
    show V c main_arg0 (((cfg0.win 0).blk t).view.emb y) = V c main_arg0 z
    refine congrArg (V c main_arg0) (funext fun a => Fin.ext ?_)
    match a with
    | ⟨0, _⟩ => show win0_0.index t (0 : Fin 2) * 5000 + 1 * (y 0).val = (z 0).val; rw [e00, hz0]; omega
    | ⟨1, _⟩ => show win0_0.index t (1 : Fin 2) * 128 + 1 * (y 1).val = (z 1).val; rw [e01, hz1]; omega
  · intro y
    unfold iblk0
    rw [View.read_apply]
    show V c main_arg3 (((cfg0.win 1).blk t).view.emb y) = V c main_arg3 y
    refine congrArg (V c main_arg3) (funext fun a => Fin.ext ?_)
    match a with
    | ⟨0, _⟩ => show win0_1.index t (0 : Fin 2) * 128 + 1 * (y 0).val = (y 0).val; rw [e10]; omega
    | ⟨1, _⟩ => show win0_1.index t (1 : Fin 2) * 64 + 1 * (y 1).val = (y 1).val; rw [e11]; omega

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v23).slice (win0_2.rect t)).set ↔ _
  rw [View.set_slice_whole, Rect.mem_set_unit]
  exact Iff.rfl

/-- Row `r` of the result lies in the block of point `r / 5000`, and every point writes back. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e00, e01, e10, e11, e20, e21⟩ := idx t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e20, ht]; omega
  | ⟨1, _⟩ => show win0_2.index t (1 : Fin 2) * 64 ≤ (i 1).val ∧ (i 1).val < win0_2.index t (1 : Fin 2) * 64 + 64; rw [e21]; omega

/-- THE RESULT ARRAY after the region: the layer's function of the arrays as the region finds them. -/
theorem value (c : Dev nD) : (dat0 V c).arrAt 2 cfg0.N = Spec.mm (n := 100000) (k := 128) (c := 64) (V c main_arg0) (V c main_arg3) :=
  (dat0 V c).arrAt_eq_of_cover 2 _ (fun t _ => flushed_eq V c t) cover

end Cert.KernelIdeal.Region0

end
-- ==== Proof.Region1.lean ====
/-
  REGION 1: the first layer's combine step.
  The body takes a block of 5000 rows of the summed messages, of the transformed features and of the degree column, and the bias row, to max((agg + h · (d · d)) + b, 0).
  The region's grid has 20 points; at point t every row-blocked window holds rows 5000·t … 5000·t + 4999 of its array
  and a whole-array window holds its array, so what point t writes back is the row block t of ONE function of the
  arrays as the region finds them, and the 20 row blocks cover the result array.
-/
import proofs.«135825_j5686536700269_1_alg».proof.Proof.Gen.KernelIdeal.Frame
import proofs.«135825_j5686536700269_1_alg».proof.Proof.KPay
import proofs.«135825_j5686536700269_1_alg».proof.Proof.Spec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole-array window's (0, 0). -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is row block `t` of the layer's function of the arrays as the region finds them. -/
theorem flushed_eq (c : Dev nD) (t : Fin cfg1.N) :
    (dat1 V c).flushed 4 t = ((cfg1.win 4).blk t).view.read (Elt Ideal) (Spec.comb (n := 100000) (c := 64) (V c main_v36) (V c main_v23) (V c main_v7) (V c main_v37)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz]
  obtain ⟨e00, e01, e10, e11, e20, e21, e30, e31, e40, e41⟩ := idx t
  funext j
  show k1_pay1 (F := Ideal) (iblk1 V c 2 t) (iblk1 V c 0 t) (iblk1 V c 1 t) (iblk1 V c 3 t) j = Spec.comb (n := 100000) (c := 64) (V c main_v36) (V c main_v23) (V c main_v7) (V c main_v37) (((cfg1.win 4).blk t).view.emb j)
  refine (congrFun (Body.pay1_eq (iblk1 V c 2 t) (iblk1 V c 0 t) (iblk1 V c 1 t) (iblk1 V c 3 t)) j).trans ?_
  refine Spec.comb_rows (V c main_v36) (V c main_v23) (V c main_v7) (V c main_v37) (iblk1 V c 3 t) (iblk1 V c 0 t) (iblk1 V c 1 t) (iblk1 V c 2 t) (t.val * 5000) j _ ?_ ?_ ?_ ?_ ?_ ?_
  · show win1_4.index t (0 : Fin 2) * 5000 + 1 * (j 0).val = t.val * 5000 + (j 0).val; rw [e40]; omega
  · show win1_4.index t (1 : Fin 2) * 64 + 1 * (j 1).val = (j 1).val; rw [e41]; omega
  · intro y z hz0 hz1
    unfold iblk1
    rw [View.read_apply]
    show V c main_v36 (((cfg1.win 0).blk t).view.emb y) = V c main_v36 z
    refine congrArg (V c main_v36) (funext fun a => Fin.ext ?_)
    match a with
    | ⟨0, _⟩ => show win1_0.index t (0 : Fin 2) * 5000 + 1 * (y 0).val = (z 0).val; rw [e00, hz0]; omega
    | ⟨1, _⟩ => show win1_0.index t (1 : Fin 2) * 64 + 1 * (y 1).val = (z 1).val; rw [e01, hz1]; omega
  · intro y z hz0 hz1
    unfold iblk1
    rw [View.read_apply]
    show V c main_v23 (((cfg1.win 1).blk t).view.emb y) = V c main_v23 z
    refine congrArg (V c main_v23) (funext fun a => Fin.ext ?_)
    match a with
    | ⟨0, _⟩ => show win1_1.index t (0 : Fin 2) * 5000 + 1 * (y 0).val = (z 0).val; rw [e10, hz0]; omega
    | ⟨1, _⟩ => show win1_1.index t (1 : Fin 2) * 64 + 1 * (y 1).val = (z 1).val; rw [e11, hz1]; omega
  · intro y z hz0 hz1
    unfold iblk1
    rw [View.read_apply]
    show V c main_v7 (((cfg1.win 2).blk t).view.emb y) = V c main_v7 z
    refine congrArg (V c main_v7) (funext fun a => Fin.ext ?_)
    match a with
    | ⟨0, _⟩ => show win1_2.index t (0 : Fin 2) * 5000 + 1 * (y 0).val = (z 0).val; rw [e20, hz0]; omega
    | ⟨1, _⟩ => show win1_2.index t (1 : Fin 2) * 1 + 1 * (y 1).val = (z 1).val; rw [e21, hz1]; omega
  · intro y
    unfold iblk1
    rw [View.read_apply]
    show V c main_v37 (((cfg1.win 3).blk t).view.emb y) = V c main_v37 y
    refine congrArg (V c main_v37) (funext fun a => Fin.ext ?_)
    match a with
    | ⟨0, _⟩ => show win1_3.index t (0 : Fin 2) * 1 + 1 * (y 0).val = (y 0).val; rw [e30]; omega
    | ⟨1, _⟩ => show win1_3.index t (1 : Fin 2) * 64 + 1 * (y 1).val = (y 1).val; rw [e31]; omega

/-- An index of the result array is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v38).slice (win1_4.rect t)).set ↔ _
  rw [View.set_slice_whole, Rect.mem_set_unit]
  exact Iff.rfl

/-- Row `r` of the result lies in the block of point `r / 5000`, and every point writes back. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e00, e01, e10, e11, e20, e21, e30, e31, e40, e41⟩ := idx t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; rw [e40, ht]; omega
  | ⟨1, _⟩ => show win1_4.index t (1 : Fin 2) * 64 ≤ (i 1).val ∧ (i 1).val < win1_4.index t (1 : Fin 2) * 64 + 64; rw [e41]; omega

/-- THE RESULT ARRAY after the region: the layer's function of the arrays as the region finds them. -/
theorem value (c : Dev nD) : (dat1 V c).arrAt 4 cfg1.N = Spec.comb (n := 100000) (c := 64) (V c main_v36) (V c main_v23) (V c main_v7) (V c main_v37) :=
  (dat1 V c).arrAt_eq_of_cover 4 _ (fun t _ => flushed_eq V c t) cover

end Cert.KernelIdeal.Region1

end
-- ==== Proof.Region2.lean ====
/-
  REGION 2: the second layer's feature transform, h1 · W2.
  The body multiplies a block of 5000 rows of the first layer's output by the whole of W2.
  The region's grid has 20 points; at point t every row-blocked window holds rows 5000·t … 5000·t + 4999 of its array
  and a whole-array window holds its array, so what point t writes back is the row block t of ONE function of the
  arrays as the region finds them, and the 20 row blocks cover the result array.
-/
import proofs.«135825_j5686536700269_1_alg».proof.Proof.Gen.KernelIdeal.Frame
import proofs.«135825_j5686536700269_1_alg».proof.Proof.KPay
import proofs.«135825_j5686536700269_1_alg».proof.Proof.Spec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole-array window's (0, 0). -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is row block `t` of the layer's function of the arrays as the region finds them. -/
theorem flushed_eq (c : Dev nD) (t : Fin cfg2.N) :
    (dat2 V c).flushed 2 t = ((cfg2.win 2).blk t).view.read (Elt Ideal) (Spec.mm (n := 100000) (k := 64) (c := 32) (V c main_v38) (V c main_arg5)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x32) hz]
  obtain ⟨e00, e01, e10, e11, e20, e21⟩ := idx t
  funext j
  show k2_pay1 (F := Ideal) (iblk2 V c 0 t) (iblk2 V c 1 t) j = Spec.mm (n := 100000) (k := 64) (c := 32) (V c main_v38) (V c main_arg5) (((cfg2.win 2).blk t).view.emb j)
  refine (congrFun (Body.pay2_eq (iblk2 V c 0 t) (iblk2 V c 1 t)) j).trans ?_
  refine Spec.mm_rows (V c main_v38) (iblk2 V c 0 t) (V c main_arg5) (iblk2 V c 1 t) (t.val * 5000) j _ ?_ ?_ ?_ ?_
  · show win2_2.index t (0 : Fin 2) * 5000 + 1 * (j 0).val = t.val * 5000 + (j 0).val; rw [e20]; omega
  · show win2_2.index t (1 : Fin 2) * 32 + 1 * (j 1).val = (j 1).val; rw [e21]; omega
  · intro y z hz0 hz1
    unfold iblk2
    rw [View.read_apply]
    show V c main_v38 (((cfg2.win 0).blk t).view.emb y) = V c main_v38 z
    refine congrArg (V c main_v38) (funext fun a => Fin.ext ?_)
    match a with
    | ⟨0, _⟩ => show win2_0.index t (0 : Fin 2) * 5000 + 1 * (y 0).val = (z 0).val; rw [e00, hz0]; omega
    | ⟨1, _⟩ => show win2_0.index t (1 : Fin 2) * 64 + 1 * (y 1).val = (z 1).val; rw [e01, hz1]; omega
  · intro y
    unfold iblk2
    rw [View.read_apply]
    show V c main_arg5 (((cfg2.win 1).blk t).view.emb y) = V c main_arg5 y
    refine congrArg (V c main_arg5) (funext fun a => Fin.ext ?_)
    match a with
    | ⟨0, _⟩ => show win2_1.index t (0 : Fin 2) * 64 + 1 * (y 0).val = (y 0).val; rw [e10]; omega
    | ⟨1, _⟩ => show win2_1.index t (1 : Fin 2) * 32 + 1 * (y 1).val = (y 1).val; rw [e11]; omega

/-- An index of the result array is in point `t`'s block iff each coordinate is in the block's range on its axis. -/
theorem mem_blk (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v39).slice (win2_2.rect t)).set ↔ _
  rw [View.set_slice_whole, Rect.mem_set_unit]
  exact Iff.rfl

/-- Row `r` of the result lies in the block of point `r / 5000`, and every point writes back. -/
theorem cover (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e00, e01, e10, e11, e20, e21⟩ := idx t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e20, ht]; omega
  | ⟨1, _⟩ => show win2_2.index t (1 : Fin 2) * 32 ≤ (i 1).val ∧ (i 1).val < win2_2.index t (1 : Fin 2) * 32 + 32; rw [e21]; omega

/-- THE RESULT ARRAY after the region: the layer's function of the arrays as the region finds them. -/
theorem value (c : Dev nD) : (dat2 V c).arrAt 2 cfg2.N = Spec.mm (n := 100000) (k := 64) (c := 32) (V c main_v38) (V c main_arg5) :=
  (dat2 V c).arrAt_eq_of_cover 2 _ (fun t _ => flushed_eq V c t) cover

end Cert.KernelIdeal.Region2

end
-- ==== Proof.Region3.lean ====
/-
  REGION 3: the second layer's combine step.
  The body takes a block of 5000 rows of the summed messages, of the transformed features and of the degree column, and the bias row, to max((agg + h · (d · d)) + b, 0).
  The region's grid has 20 points; at point t every row-blocked window holds rows 5000·t … 5000·t + 4999 of its array
  and a whole-array window holds its array, so what point t writes back is the row block t of ONE function of the
  arrays as the region finds them, and the 20 row blocks cover the result array.
-/
import proofs.«135825_j5686536700269_1_alg».proof.Proof.Gen.KernelIdeal.Frame
import proofs.«135825_j5686536700269_1_alg».proof.Proof.KPay
import proofs.«135825_j5686536700269_1_alg».proof.Proof.Spec
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole-array window's (0, 0). -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is row block `t` of the layer's function of the arrays as the region finds them. -/
theorem flushed_eq (c : Dev nD) (t : Fin cfg3.N) :
    (dat3 V c).flushed 4 t = ((cfg3.win 4).blk t).view.read (Elt Ideal) (Spec.comb (n := 100000) (c := 32) (V c main_v52) (V c main_v39) (V c main_v7) (V c main_v53)) := by
  show (cfg3.win 4).cut (grid3.coords t) ((dat3 V c).after 4 t) = _
  rw [after3_4]
  unfold out3_4
  rw [View.canon_unit_zero hz]
  simp only [View.ld_unit_zero (S := S5000x32) hz, View.ld_unit_zero (S := S5000x1) hz, View.ld_unit_zero (S := S1x32) hz]
  obtain ⟨e00, e01, e10, e11, e20, e21, e30, e31, e40, e41⟩ := idx t
  funext j
  show k3_pay1 (F := Ideal) (iblk3 V c 2 t) (iblk3 V c 0 t) (iblk3 V c 1 t) (iblk3 V c 3 t) j = Spec.comb (n := 100000) (c := 32) (V c main_v52) (V c main_v39) (V c main_v7) (V c main_v53) (((cfg3.win 4).blk t).view.emb j)
  refine (congrFun (Body.pay3_eq (iblk3 V c 2 t) (iblk3 V c 0 t) (iblk3 V c 1 t) (iblk3 V c 3 t)) j).trans ?_
  refine Spec.comb_rows (V c main_v52) (V c main_v39) (V c main_v7) (V c main_v53) (iblk3 V c 3 t) (iblk3 V c 0 t) (iblk3 V c 1 t) (iblk3 V c 2 t) (t.val * 5000) j _ ?_ ?_ ?_ ?_ ?_ ?_
  · show win3_4.index t (0 : Fin 2) * 5000 + 1 * (j 0).val = t.val * 5000 + (j 0).val; rw [e40]; omega
  · show win3_4.index t (1 : Fin 2) * 32 + 1 * (j 1).val = (j 1).val; rw [e41]; omega
  · intro y z hz0 hz1
    unfold iblk3
    rw [View.read_apply]
    show V c main_v52 (((cfg3.win 0).blk t).view.emb y) = V c main_v52 z
    refine congrArg (V c main_v52) (funext fun a => Fin.ext ?_)
    match a with
    | ⟨0, _⟩ => show win3_0.index t (0 : Fin 2) * 5000 + 1 * (y 0).val = (z 0).val; rw [e00, hz0]; omega
    | ⟨1, _⟩ => show win3_0.index t (1 : Fin 2) * 32 + 1 * (y 1).val = (z 1).val; rw [e01, hz1]; omega
  · intro y z hz0 hz1
    unfold iblk3
    rw [View.read_apply]
    show V c main_v39 (((cfg3.win 1).blk t).view.emb y) = V c main_v39 z
    refine congrArg (V c main_v39) (funext fun a => Fin.ext ?_)
    match a with
    | ⟨0, _⟩ => show win3_1.index t (0 : Fin 2) * 5000 + 1 * (y 0).val = (z 0).val; rw [e10, hz0]; omega
    | ⟨1, _⟩ => show win3_1.index t (1 : Fin 2) * 32 + 1 * (y 1).val = (z 1).val; rw [e11, hz1]; omega
  · intro y z hz0 hz1
    unfold iblk3
    rw [View.read_apply]
    show V c main_v7 (((cfg3.win 2).blk t).view.emb y) = V c main_v7 z
    refine congrArg (V c main_v7) (funext fun a => Fin.ext ?_)
    match a with
    | ⟨0, _⟩ => show win3_2.index t (0 : Fin 2) * 5000 + 1 * (y 0).val = (z 0).val; rw [e20, hz0]; omega
    | ⟨1, _⟩ => show win3_2.index t (1 : Fin 2) * 1 + 1 * (y 1).val = (z 1).val; rw [e21, hz1]; omega
  · intro y
    unfold iblk3
    rw [View.read_apply]
    show V c main_v53 (((cfg3.win 3).blk t).view.emb y) = V c main_v53 y
    refine congrArg (V c main_v53) (funext fun a => Fin.ext ?_)
    match a with
    | ⟨0, _⟩ => show win3_3.index t (0 : Fin 2) * 1 + 1 * (y 0).val = (y 0).val; rw [e30]; omega
    | ⟨1, _⟩ => show win3_3.index t (1 : Fin 2) * 32 + 1 * (y 1).val = (y 1).val; rw [e31]; omega

/-- An index of the result array is in point `t`'s block iff each coordinate is in the block's range on its axis. -/
theorem mem_blk (t : Fin cfg3.N) (i : S100000x32.Idx) :
    i ∈ ((cfg3.win 4).blk t).view.set ↔ ∀ a : Fin 2, win3_4.index t a * S5000x32.size a ≤ (i a).val ∧ (i a).val < win3_4.index t a * S5000x32.size a + S5000x32.size a := by
  show i ∈ ((View.whole main_v54).slice (win3_4.rect t)).set ↔ _
  rw [View.set_slice_whole, Rect.mem_set_unit]
  exact Iff.rfl

/-- Row `r` of the result lies in the block of point `r / 5000`, and every point writes back. -/
theorem cover (i : S100000x32.Idx) :
    ∃ t : Fin cfg3.N, (cfg3.win 4).flush t = true ∧ i ∈ ((cfg3.win 4).blk t).view.set := by
  have hi0 : (i 0).val < 100000 := (i 0).isLt
  have hi1 : (i 1).val < 32 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e00, e01, e10, e11, e20, e21, e30, e31, e40, e41⟩ := idx t
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; rw [e40, ht]; omega
  | ⟨1, _⟩ => show win3_4.index t (1 : Fin 2) * 32 ≤ (i 1).val ∧ (i 1).val < win3_4.index t (1 : Fin 2) * 32 + 32; rw [e41]; omega

/-- THE RESULT ARRAY after the region: the layer's function of the arrays as the region finds them. -/
theorem value (c : Dev nD) : (dat3 V c).arrAt 4 cfg3.N = Spec.comb (n := 100000) (c := 32) (V c main_v52) (V c main_v39) (V c main_v7) (V c main_v53) :=
  (dat3 V c).arrAt_eq_of_cover 4 _ (fun t _ => flushed_eq V c t) cover

end Cert.KernelIdeal.Region3

end
-- ==== Proof.Region4.lean ====
/-
  REGION 4: the linear head, h2 · Wfc + bfc.
  The body multiplies a block of 5000 rows of the second layer's output by the whole of Wfc and adds the bias row.
  The region's grid has 20 points; at point t every row-blocked window holds rows 5000·t … 5000·t + 4999 of its array
  and a whole-array window holds its array, so what point t writes back is the row block t of ONE function of the
  arrays as the region finds them, and the 20 row blocks cover the result array.
-/
import proofs.«135825_j5686536700269_1_alg».proof.Proof.Gen.KernelIdeal.Frame
import proofs.«135825_j5686536700269_1_alg».proof.Proof.KPay
import proofs.«135825_j5686536700269_1_alg».proof.Proof.Spec
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row-blocked window's block index is (t, 0), a whole-array window's (0, 0). -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is row block `t` of the layer's function of the arrays as the region finds them. -/
theorem flushed_eq (c : Dev nD) (t : Fin cfg4.N) :
    (dat4 V c).flushed 3 t = ((cfg4.win 3).blk t).view.read (Elt Ideal) (Spec.mmb (n := 100000) (k := 32) (c := 10) (V c main_v54) (V c main_arg7) (V c main_v55)) := by
  show (cfg4.win 3).cut (grid4.coords t) ((dat4 V c).after 3 t) = _
  rw [after4_3]
  unfold out4_3
  rw [View.canon_unit_zero hz]
  simp only [View.ld_unit_zero (S := S5000x32) hz, View.ld_unit_zero (S := S32x10) hz, View.ld_unit_zero (S := S1x10) hz]
  obtain ⟨e00, e01, e10, e11, e20, e21, e30, e31⟩ := idx t
  funext j
  show k4_pay1 (F := Ideal) (iblk4 V c 0 t) (iblk4 V c 1 t) (iblk4 V c 2 t) j = Spec.mmb (n := 100000) (k := 32) (c := 10) (V c main_v54) (V c main_arg7) (V c main_v55) (((cfg4.win 3).blk t).view.emb j)
  refine (congrFun (Body.pay4_eq (iblk4 V c 0 t) (iblk4 V c 1 t) (iblk4 V c 2 t)) j).trans ?_
  refine Spec.mmb_rows (V c main_v54) (iblk4 V c 0 t) (V c main_arg7) (iblk4 V c 1 t) (V c main_v55) (iblk4 V c 2 t) (t.val * 5000) j _ ?_ ?_ ?_ ?_ ?_
  · show win4_3.index t (0 : Fin 2) * 5000 + 1 * (j 0).val = t.val * 5000 + (j 0).val; rw [e30]; omega
  · show win4_3.index t (1 : Fin 2) * 10 + 1 * (j 1).val = (j 1).val; rw [e31]; omega
  · intro y z hz0 hz1
    unfold iblk4
    rw [View.read_apply]
    show V c main_v54 (((cfg4.win 0).blk t).view.emb y) = V c main_v54 z
    refine congrArg (V c main_v54) (funext fun a => Fin.ext ?_)
    match a with
    | ⟨0, _⟩ => show win4_0.index t (0 : Fin 2) * 5000 + 1 * (y 0).val = (z 0).val; rw [e00, hz0]; omega
    | ⟨1, _⟩ => show win4_0.index t (1 : Fin 2) * 32 + 1 * (y 1).val = (z 1).val; rw [e01, hz1]; omega
  · intro y
    unfold iblk4
    rw [View.read_apply]
    show V c main_arg7 (((cfg4.win 1).blk t).view.emb y) = V c main_arg7 y
    refine congrArg (V c main_arg7) (funext fun a => Fin.ext ?_)
    match a with
    | ⟨0, _⟩ => show win4_1.index t (0 : Fin 2) * 32 + 1 * (y 0).val = (y 0).val; rw [e10]; omega
    | ⟨1, _⟩ => show win4_1.index t (1 : Fin 2) * 10 + 1 * (y 1).val = (y 1).val; rw [e11]; omega
  · intro y
    unfold iblk4
    rw [View.read_apply]
    show V c main_v55 (((cfg4.win 2).blk t).view.emb y) = V c main_v55 y
    refine congrArg (V c main_v55) (funext fun a => Fin.ext ?_)
    match a with
    | ⟨0, _⟩ => show win4_2.index t (0 : Fin 2) * 1 + 1 * (y 0).val = (y 0).val; rw [e20]; omega
    | ⟨1, _⟩ => show win4_2.index t (1 : Fin 2) * 10 + 1 * (y 1).val = (y 1).val; rw [e21]; omega

/-- An index of the result array is in point `t`'s block iff each coordinate is in the block's range on its axis. -/
theorem mem_blk (t : Fin cfg4.N) (i : S100000x10.Idx) :
    i ∈ ((cfg4.win 3).blk t).view.set ↔ ∀ a : Fin 2, win4_3.index t a * S5000x10.size a ≤ (i a).val ∧ (i a).val < win4_3.index t a * S5000x10.size a + S5000x10.size a := by
  show i ∈ ((View.whole main_v56).slice (win4_3.rect t)).set ↔ _
  rw [View.set_slice_whole, Rect.mem_set_unit]
  exact Iff.rfl

/-- Row `r` of the result lies in the block of point `r / 5000`, and every point writes back. -/
theorem cover (i : S100000x10.Idx) :
    ∃ t : Fin cfg4.N, (cfg4.win 3).flush t = true ∧ i ∈ ((cfg4.win 3).blk t).view.set := by
  have hi0 : (i 0).val < 100000 := (i 0).isLt
  have hi1 : (i 1).val < 10 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨e00, e01, e10, e11, e20, e21, e30, e31⟩ := idx t
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; rw [e30, ht]; omega
  | ⟨1, _⟩ => show win4_3.index t (1 : Fin 2) * 10 ≤ (i 1).val ∧ (i 1).val < win4_3.index t (1 : Fin 2) * 10 + 10; rw [e31]; omega

/-- THE RESULT ARRAY after the region: the layer's function of the arrays as the region finds them. -/
theorem value (c : Dev nD) : (dat4 V c).arrAt 3 cfg4.N = Spec.mmb (n := 100000) (k := 32) (c := 10) (V c main_v54) (V c main_arg7) (V c main_v55) :=
  (dat4 V c).arrAt_eq_of_cover 3 _ (fun t _ => flushed_eq V c t) cover

end Cert.KernelIdeal.Region4

end
-- ==== Proof.RLayers.lean ====
/-
  The reference's dense stages as the layer functions: its three host matrix products are the matrix product, entry by
  entry the plain sum; its two chains "summed messages + features · squared inverse-root degree + bias, then max with 0"
  are the combine step, the degree vector read as a column and the bias as a row; its head is the product plus the
  bias row. The column and the row are the host casts of the vectors, under any proof that the cast is admissible.
-/
import proofs.«135825_j5686536700269_1_alg».proof.Proof.Gen.ReferenceIdeal.Read
import proofs.«135825_j5686536700269_1_alg».proof.Proof.LibLayoutCol
import proofs.«135825_j5686536700269_1_alg».proof.Proof.Spec
import Idealize.ShloMosaic.Lib.ValueLayout
import Idealize.ShloMosaic.Lib.Pipeline.Value

noncomputable section

namespace Cert.ReferenceIdeal.Layers

open Cert.ReferenceIdeal Cert.ReferenceIdeal.Read Idealize.ShloMosaic Idealize.ShloMosaic.ValueIdx

/-! ## The products -/

/-- The first layer's feature transform. -/
theorem mm_v0 (x0 : (⟨S100000x128, .f32⟩ : BufTy).Contents (Elt Ideal)) (x3 : (⟨S128x64, .f32⟩ : BufTy).Contents (Elt Ideal)) :
    val_main_v0 (F := Ideal) x0 x3 = Spec.mm (n := 100000) (k := 128) (c := 64) x0 x3 := by
  funext i
  rw [val_main_v0_apply]
  unfold Spec.mm
  refine Finset.sum_congr rfl fun q _ => ?_
  rw [show lidx_main_v0 i q = ix2 (Spec.row i) q from funext fun a => by match a with | ⟨0, _⟩ => rfl | ⟨1, _⟩ => rfl,
    show ridx_main_v0 i q = ix2 q (Spec.col i) from funext fun a => by match a with | ⟨0, _⟩ => rfl | ⟨1, _⟩ => rfl]

/-- The second layer's feature transform, of the first layer's output. -/
theorem mm_v45 (x0 : (⟨S100000x128, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) (x5 : (⟨S64x32, .f32⟩ : BufTy).Contents (Elt Ideal)) :
    val_main_v45 (F := Ideal) x0 x1 x2 x3 x4 x5 = Spec.mm (n := 100000) (k := 64) (c := 32) (val_main_v44 (F := Ideal) x0 x1 x2 x3 x4) x5 := by
  funext i
  rw [val_main_v45_apply]
  unfold Spec.mm
  refine Finset.sum_congr rfl fun q _ => ?_
  rw [show lidx_main_v45 i q = ix2 (Spec.row i) q from funext fun a => by match a with | ⟨0, _⟩ => rfl | ⟨1, _⟩ => rfl,
    show ridx_main_v45 i q = ix2 q (Spec.col i) from funext fun a => by match a with | ⟨0, _⟩ => rfl | ⟨1, _⟩ => rfl]

/-- The head: the second layer's output times the head's weights, plus the bias read as a row. -/
theorem head_v93 (x0 : (⟨S100000x128, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S32x10, .f32⟩ : BufTy).Contents (Elt Ideal)) (x8 : (⟨S10, .f32⟩ : BufTy).Contents (Elt Ideal)) (h : (⟨1, ![10]⟩ : Shape).ShapeCasts ⟨2, ![1, 10]⟩) :
    val_main_v93 (F := Ideal) x0 x1 x2 x3 x4 x5 x6 x7 x8
      = Spec.mmb (n := 100000) (k := 32) (c := 10) (val_main_v89 (F := Ideal) x0 x1 x2 x3 x4 x5 x6) x7 (shapeCast ⟨2, ![1, 10]⟩ x8 h) := by
  funext i
  rw [val_main_v93_apply, val_main_v90_apply, val_main_v92_apply, val_main_v91_apply]
  unfold Spec.mmb Spec.mm
  rw [shapeCast_a_1a_apply]
  simp only [Ideal.addf_def]
  refine congrArg₂ (· + ·) (Finset.sum_congr rfl fun q _ => ?_) (congrArg x8 (funext fun a => by match a with | ⟨0, _⟩ => rfl))
  rw [show lidx_main_v90 i q = ix2 (Spec.row i) q from funext fun a => by match a with | ⟨0, _⟩ => rfl | ⟨1, _⟩ => rfl,
    show ridx_main_v90 i q = ix2 q (Spec.col i) from funext fun a => by match a with | ⟨0, _⟩ => rfl | ⟨1, _⟩ => rfl]

/-- The reference computes the edge weights a second time for the second layer, by the same operations of the same two
    index arrays: the same vector. -/
theorem norm_again (x1 x2 : (⟨S1600000, .i32⟩ : BufTy).Contents (Elt Ideal)) : val_main_v67 (F := Ideal) x1 x2 = val_main_v22 (F := Ideal) x1 x2 := rfl

/-! ## The combine steps -/

/-- The first layer after the messages were summed: the combine step of the summed messages, the transformed features,
    the inverse-root degrees as a column and the bias as a row. -/
theorem comb_v44 (x0 : (⟨S100000x128, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) (hd : (⟨1, ![100000]⟩ : Shape).ShapeCasts ⟨2, ![100000, 1]⟩)
    (hb : (⟨1, ![64]⟩ : Shape).ShapeCasts ⟨2, ![1, 64]⟩) :
    val_main_v44 (F := Ideal) x0 x1 x2 x3 x4
      = Spec.comb (n := 100000) (c := 64) (val_main_v35 (F := Ideal) x0 x1 x2 x3) (val_main_v0 (F := Ideal) x0 x3)
          (shapeCast ⟨2, ![100000, 1]⟩ (val_main_v7 (F := Ideal) x2) hd) (shapeCast ⟨2, ![1, 64]⟩ x4 hb) := by
  funext i
  rw [val_main_v44_apply, val_main_v43_apply, val_main_v40_apply, val_main_v39_apply, val_main_v38_apply, val_main_v37_apply,
    val_main_v36_apply, val_main_v42_apply, val_main_v41_apply, val_main_call0_v0_apply, val_main_call0_cst_apply]
  unfold Spec.comb
  rw [shapeCast_a_a1_apply, shapeCast_a_1a_apply]
  simp only [Ideal.addf_def, Ideal.mulf_def, Ideal.maximumf_def, Ideal.ofBits_def]
  rw [show idx_main_v37 (idx_main_v38 i) = ix1 (Spec.row i) from funext fun a => by match a with | ⟨0, _⟩ => rfl,
    show idx_main_v41 (idx_main_v42 i) = ix1 (Spec.col i) from funext fun a => by match a with | ⟨0, _⟩ => rfl]

/-- The second layer after the messages were summed. The reference computes the inverse-root degrees a second time, by
    the same operations of the same destination array: the same vector. -/
theorem comb_v89 (x0 : (⟨S100000x128, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (hd : (⟨1, ![100000]⟩ : Shape).ShapeCasts ⟨2, ![100000, 1]⟩)
    (hb : (⟨1, ![32]⟩ : Shape).ShapeCasts ⟨2, ![1, 32]⟩) :
    val_main_v89 (F := Ideal) x0 x1 x2 x3 x4 x5 x6
      = Spec.comb (n := 100000) (c := 32) (val_main_v80 (F := Ideal) x0 x1 x2 x3 x4 x5) (val_main_v45 (F := Ideal) x0 x1 x2 x3 x4 x5)
          (shapeCast ⟨2, ![100000, 1]⟩ (val_main_v7 (F := Ideal) x2) hd) (shapeCast ⟨2, ![1, 32]⟩ x6 hb) := by
  have hdeg : val_main_v52 (F := Ideal) x2 = val_main_v7 (F := Ideal) x2 := rfl
  funext i
  rw [val_main_v89_apply, val_main_v88_apply, val_main_v85_apply, val_main_v84_apply, val_main_v83_apply, val_main_v82_apply,
    val_main_v81_apply, val_main_v87_apply, val_main_v86_apply, val_main_call1_v0_apply, val_main_call1_cst_apply, hdeg]
  unfold Spec.comb
  rw [shapeCast_a_a1_apply, shapeCast_a_1a_apply]
  simp only [Ideal.addf_def, Ideal.mulf_def, Ideal.maximumf_def, Ideal.ofBits_def]
  rw [show idx_main_v82 (idx_main_v83 i) = ix1 (Spec.row i) from funext fun a => by match a with | ⟨0, _⟩ => rfl,
    show idx_main_v86 (idx_main_v87 i) = ix1 (Spec.col i) from funext fun a => by match a with | ⟨0, _⟩ => rfl]

end Cert.ReferenceIdeal.Layers

end
-- ==== Proof.Glue.lean ====
/-
  The kernel program's arrays at each segment boundary, as functions of the nine argument arrays.

  @main alternates host stretches and regions. At every boundary each array that is still to be read holds a known
  function of the arguments: a host stretch's new arrays are its operations applied to what it reads (the same
  operations, on the same values, as the reference's stages: degree scatter, inverse square root, the two gathers for
  the edge weights, then per layer a gather of source rows, a product with the edge weights and a scatter-add to the
  destination rows); a region's result array is its layer function of the arrays it finds (the region modules), which is
  the reference's stage by the reference-side layer lemmas; every other array is as it was. The values are named by the
  reference's own stage functions `val_main_vN` of the arguments, so the last boundary gives the two results in the
  reference's words.
-/
import proofs.«135825_j5686536700269_1_alg».proof.Proof.Gen.KernelIdeal.Frame
import proofs.«135825_j5686536700269_1_alg».proof.Proof.Region0
import proofs.«135825_j5686536700269_1_alg».proof.Proof.Region1
import proofs.«135825_j5686536700269_1_alg».proof.Proof.Region2
import proofs.«135825_j5686536700269_1_alg».proof.Proof.Region3
import proofs.«135825_j5686536700269_1_alg».proof.Proof.Region4
import proofs.«135825_j5686536700269_1_alg».proof.Proof.RLayers
import Idealize.ShloMosaic.Lib.StableHlo.Run

set_option maxRecDepth 16384

noncomputable section

namespace Cert.KernelIdeal.Glue

open Cert.KernelIdeal Cert.KernelIdeal.Gen Cert.ReferenceIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The argument arrays on core `c` -/

abbrev a0 (c : Dev nD) : (⟨Cert.ReferenceIdeal.S100000x128, .f32⟩ : BufTy).Contents (Elt Ideal) := m ((c : Thread nD τ).loc main_arg0)
abbrev a1 (c : Dev nD) : (⟨Cert.ReferenceIdeal.S1600000, .i32⟩ : BufTy).Contents (Elt Ideal) := m ((c : Thread nD τ).loc main_arg1)
abbrev a2 (c : Dev nD) : (⟨Cert.ReferenceIdeal.S1600000, .i32⟩ : BufTy).Contents (Elt Ideal) := m ((c : Thread nD τ).loc main_arg2)
abbrev a3 (c : Dev nD) : (⟨Cert.ReferenceIdeal.S128x64, .f32⟩ : BufTy).Contents (Elt Ideal) := m ((c : Thread nD τ).loc main_arg3)
abbrev a4 (c : Dev nD) : (⟨Cert.ReferenceIdeal.S64, .f32⟩ : BufTy).Contents (Elt Ideal) := m ((c : Thread nD τ).loc main_arg4)
abbrev a5 (c : Dev nD) : (⟨Cert.ReferenceIdeal.S64x32, .f32⟩ : BufTy).Contents (Elt Ideal) := m ((c : Thread nD τ).loc main_arg5)
abbrev a6 (c : Dev nD) : (⟨Cert.ReferenceIdeal.S32, .f32⟩ : BufTy).Contents (Elt Ideal) := m ((c : Thread nD τ).loc main_arg6)
abbrev a7 (c : Dev nD) : (⟨Cert.ReferenceIdeal.S32x10, .f32⟩ : BufTy).Contents (Elt Ideal) := m ((c : Thread nD τ).loc main_arg7)
abbrev a8 (c : Dev nD) : (⟨Cert.ReferenceIdeal.S10, .f32⟩ : BufTy).Contents (Elt Ideal) := m ((c : Thread nD τ).loc main_arg8)

theorem W0_arg0 (c : Dev nD) : (W0 m ρ c (Proc.devRef .tc main_arg0) : (⟨Cert.ReferenceIdeal.S100000x128, .f32⟩ : BufTy).Contents (Elt Ideal)) = a0 m c := rfl
theorem W0_arg1 (c : Dev nD) : (W0 m ρ c (Proc.devRef .tc main_arg1) : (⟨Cert.ReferenceIdeal.S1600000, .i32⟩ : BufTy).Contents (Elt Ideal)) = a1 m c := rfl
theorem W0_arg2 (c : Dev nD) : (W0 m ρ c (Proc.devRef .tc main_arg2) : (⟨Cert.ReferenceIdeal.S1600000, .i32⟩ : BufTy).Contents (Elt Ideal)) = a2 m c := rfl
theorem W0_arg3 (c : Dev nD) : (W0 m ρ c (Proc.devRef .tc main_arg3) : (⟨Cert.ReferenceIdeal.S128x64, .f32⟩ : BufTy).Contents (Elt Ideal)) = a3 m c := rfl
theorem W0_arg4 (c : Dev nD) : (W0 m ρ c (Proc.devRef .tc main_arg4) : (⟨Cert.ReferenceIdeal.S64, .f32⟩ : BufTy).Contents (Elt Ideal)) = a4 m c := rfl
theorem W0_arg5 (c : Dev nD) : (W0 m ρ c (Proc.devRef .tc main_arg5) : (⟨Cert.ReferenceIdeal.S64x32, .f32⟩ : BufTy).Contents (Elt Ideal)) = a5 m c := rfl
theorem W0_arg6 (c : Dev nD) : (W0 m ρ c (Proc.devRef .tc main_arg6) : (⟨Cert.ReferenceIdeal.S32, .f32⟩ : BufTy).Contents (Elt Ideal)) = a6 m c := rfl
theorem W0_arg7 (c : Dev nD) : (W0 m ρ c (Proc.devRef .tc main_arg7) : (⟨Cert.ReferenceIdeal.S32x10, .f32⟩ : BufTy).Contents (Elt Ideal)) = a7 m c := rfl
theorem W0_arg8 (c : Dev nD) : (W0 m ρ c (Proc.devRef .tc main_arg8) : (⟨Cert.ReferenceIdeal.S10, .f32⟩ : BufTy).Contents (Elt Ideal)) = a8 m c := rfl

/-! ## After the first host stretch: the inverse-root degrees as a column, the edge weights -/

theorem W1_arg0 (c : Dev nD) : (W1 m ρ c (Proc.devRef .tc main_arg0) : (⟨Cert.ReferenceIdeal.S100000x128, .f32⟩ : BufTy).Contents (Elt Ideal)) = a0 m c :=
  (StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg0 m ρ c)
theorem W1_arg1 (c : Dev nD) : (W1 m ρ c (Proc.devRef .tc main_arg1) : (⟨Cert.ReferenceIdeal.S1600000, .i32⟩ : BufTy).Contents (Elt Ideal)) = a1 m c :=
  (StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg1 m ρ c)
theorem W1_arg2 (c : Dev nD) : (W1 m ρ c (Proc.devRef .tc main_arg2) : (⟨Cert.ReferenceIdeal.S1600000, .i32⟩ : BufTy).Contents (Elt Ideal)) = a2 m c :=
  (StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg2 m ρ c)
theorem W1_arg3 (c : Dev nD) : (W1 m ρ c (Proc.devRef .tc main_arg3) : (⟨Cert.ReferenceIdeal.S128x64, .f32⟩ : BufTy).Contents (Elt Ideal)) = a3 m c :=
  (StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg3 m ρ c)
theorem W1_arg4 (c : Dev nD) : (W1 m ρ c (Proc.devRef .tc main_arg4) : (⟨Cert.ReferenceIdeal.S64, .f32⟩ : BufTy).Contents (Elt Ideal)) = a4 m c :=
  (StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg4 m ρ c)
theorem W1_arg5 (c : Dev nD) : (W1 m ρ c (Proc.devRef .tc main_arg5) : (⟨Cert.ReferenceIdeal.S64x32, .f32⟩ : BufTy).Contents (Elt Ideal)) = a5 m c :=
  (StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg5 m ρ c)
theorem W1_arg6 (c : Dev nD) : (W1 m ρ c (Proc.devRef .tc main_arg6) : (⟨Cert.ReferenceIdeal.S32, .f32⟩ : BufTy).Contents (Elt Ideal)) = a6 m c :=
  (StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg6 m ρ c)
theorem W1_arg7 (c : Dev nD) : (W1 m ρ c (Proc.devRef .tc main_arg7) : (⟨Cert.ReferenceIdeal.S32x10, .f32⟩ : BufTy).Contents (Elt Ideal)) = a7 m c :=
  (StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg7 m ρ c)
theorem W1_arg8 (c : Dev nD) : (W1 m ρ c (Proc.devRef .tc main_arg8) : (⟨Cert.ReferenceIdeal.S10, .f32⟩ : BufTy).Contents (Elt Ideal)) = a8 m c :=
  (StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg8 m ρ c)
theorem W1_v7 (c : Dev nD) : (W1 m ρ c (Proc.devRef .tc main_v7) : (⟨Cert.ReferenceIdeal.S100000x1, .f32⟩ : BufTy).Contents (Elt Ideal)) = shapeCast S100000x1 (val_main_v7 (F := Ideal) (a2 m c)) shapeCasts_S100000_S100000x1 := by
  show StableHlo.after hostOps0 (W0 m ρ c) (Proc.devRef .tc main_v7) = _
  after_results

  rfl
set_option maxHeartbeats 4000000 in
theorem W1_v22 (c : Dev nD) : (W1 m ρ c (Proc.devRef .tc main_v22) : (⟨Cert.ReferenceIdeal.S1600000, .f32⟩ : BufTy).Contents (Elt Ideal)) = val_main_v22 (F := Ideal) (a1 m c) (a2 m c) := by
  show StableHlo.after hostOps0 (W0 m ρ c) (Proc.devRef .tc main_v22) = _
  after_results_simp

  rfl

/-! ## After region 0: the first layer's transformed features -/

theorem W2_v23 (c : Dev nD) : (W2 m ρ c (Proc.devRef .tc main_v23) : (⟨Cert.ReferenceIdeal.S100000x64, .f32⟩ : BufTy).Contents (Elt Ideal)) = val_main_v0 (F := Ideal) (a0 m c) (a3 m c) := by
  refine (W2_arr m ρ c 2).trans ((Region0.value (V1 m ρ) c).trans ?_)
  rw [show V1 m ρ c main_arg0 = _ from W1_arg0 m ρ c,
    show V1 m ρ c main_arg3 = _ from W1_arg3 m ρ c]
  exact (Cert.ReferenceIdeal.Layers.mm_v0 (a0 m c) (a3 m c)).symm
theorem W2_arg1 (c : Dev nD) : (W2 m ρ c (Proc.devRef .tc main_arg1) : (⟨Cert.ReferenceIdeal.S1600000, .i32⟩ : BufTy).Contents (Elt Ideal)) = a1 m c :=
  (W2_of_ne m ρ c main_arg1 (by decide)).trans (W1_arg1 m ρ c)
theorem W2_arg2 (c : Dev nD) : (W2 m ρ c (Proc.devRef .tc main_arg2) : (⟨Cert.ReferenceIdeal.S1600000, .i32⟩ : BufTy).Contents (Elt Ideal)) = a2 m c :=
  (W2_of_ne m ρ c main_arg2 (by decide)).trans (W1_arg2 m ρ c)
theorem W2_arg4 (c : Dev nD) : (W2 m ρ c (Proc.devRef .tc main_arg4) : (⟨Cert.ReferenceIdeal.S64, .f32⟩ : BufTy).Contents (Elt Ideal)) = a4 m c :=
  (W2_of_ne m ρ c main_arg4 (by decide)).trans (W1_arg4 m ρ c)
theorem W2_arg5 (c : Dev nD) : (W2 m ρ c (Proc.devRef .tc main_arg5) : (⟨Cert.ReferenceIdeal.S64x32, .f32⟩ : BufTy).Contents (Elt Ideal)) = a5 m c :=
  (W2_of_ne m ρ c main_arg5 (by decide)).trans (W1_arg5 m ρ c)
theorem W2_arg6 (c : Dev nD) : (W2 m ρ c (Proc.devRef .tc main_arg6) : (⟨Cert.ReferenceIdeal.S32, .f32⟩ : BufTy).Contents (Elt Ideal)) = a6 m c :=
  (W2_of_ne m ρ c main_arg6 (by decide)).trans (W1_arg6 m ρ c)
theorem W2_arg7 (c : Dev nD) : (W2 m ρ c (Proc.devRef .tc main_arg7) : (⟨Cert.ReferenceIdeal.S32x10, .f32⟩ : BufTy).Contents (Elt Ideal)) = a7 m c :=
  (W2_of_ne m ρ c main_arg7 (by decide)).trans (W1_arg7 m ρ c)
theorem W2_arg8 (c : Dev nD) : (W2 m ρ c (Proc.devRef .tc main_arg8) : (⟨Cert.ReferenceIdeal.S10, .f32⟩ : BufTy).Contents (Elt Ideal)) = a8 m c :=
  (W2_of_ne m ρ c main_arg8 (by decide)).trans (W1_arg8 m ρ c)
theorem W2_v7 (c : Dev nD) : (W2 m ρ c (Proc.devRef .tc main_v7) : (⟨Cert.ReferenceIdeal.S100000x1, .f32⟩ : BufTy).Contents (Elt Ideal)) = shapeCast S100000x1 (val_main_v7 (F := Ideal) (a2 m c)) shapeCasts_S100000_S100000x1 :=
  (W2_of_ne m ρ c main_v7 (by decide)).trans (W1_v7 m ρ c)
theorem W2_v22 (c : Dev nD) : (W2 m ρ c (Proc.devRef .tc main_v22) : (⟨Cert.ReferenceIdeal.S1600000, .f32⟩ : BufTy).Contents (Elt Ideal)) = val_main_v22 (F := Ideal) (a1 m c) (a2 m c) :=
  (W2_of_ne m ρ c main_v22 (by decide)).trans (W1_v22 m ρ c)

/-! ## After the second host stretch: the first layer's summed messages, the bias as a row -/

set_option maxHeartbeats 4000000 in
theorem W3_v36 (c : Dev nD) : (W3 m ρ c (Proc.devRef .tc main_v36) : (⟨Cert.ReferenceIdeal.S100000x64, .f32⟩ : BufTy).Contents (Elt Ideal)) = val_main_v35 (F := Ideal) (a0 m c) (a1 m c) (a2 m c) (a3 m c) := by
  show StableHlo.after hostOps1 (W2 m ρ c) (Proc.devRef .tc main_v36) = _
  after_results_simp
  rw [W2_v23 m ρ c, W2_v22 m ρ c, W2_arg1 m ρ c, W2_arg2 m ρ c]
  rfl
theorem W3_v37 (c : Dev nD) : (W3 m ρ c (Proc.devRef .tc main_v37) : (⟨Cert.ReferenceIdeal.S1x64, .f32⟩ : BufTy).Contents (Elt Ideal)) = shapeCast S1x64 (a4 m c) shapeCasts_S64_S1x64 := by
  show StableHlo.after hostOps1 (W2 m ρ c) (Proc.devRef .tc main_v37) = _
  after_results
  rw [W2_arg4 m ρ c]
  rfl
theorem W3_v23 (c : Dev nD) : (W3 m ρ c (Proc.devRef .tc main_v23) : (⟨Cert.ReferenceIdeal.S100000x64, .f32⟩ : BufTy).Contents (Elt Ideal)) = val_main_v0 (F := Ideal) (a0 m c) (a3 m c) :=
  (StableHlo.after_of_forall_not_mem (b := Proc.devRef .tc main_v23) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v23 m ρ c)
theorem W3_v7 (c : Dev nD) : (W3 m ρ c (Proc.devRef .tc main_v7) : (⟨Cert.ReferenceIdeal.S100000x1, .f32⟩ : BufTy).Contents (Elt Ideal)) = shapeCast S100000x1 (val_main_v7 (F := Ideal) (a2 m c)) shapeCasts_S100000_S100000x1 :=
  (StableHlo.after_of_forall_not_mem (b := Proc.devRef .tc main_v7) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v7 m ρ c)
theorem W3_v22 (c : Dev nD) : (W3 m ρ c (Proc.devRef .tc main_v22) : (⟨Cert.ReferenceIdeal.S1600000, .f32⟩ : BufTy).Contents (Elt Ideal)) = val_main_v22 (F := Ideal) (a1 m c) (a2 m c) :=
  (StableHlo.after_of_forall_not_mem (b := Proc.devRef .tc main_v22) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v22 m ρ c)
theorem W3_arg1 (c : Dev nD) : (W3 m ρ c (Proc.devRef .tc main_arg1) : (⟨Cert.ReferenceIdeal.S1600000, .i32⟩ : BufTy).Contents (Elt Ideal)) = a1 m c :=
  (StableHlo.after_of_forall_not_mem (b := Proc.devRef .tc main_arg1) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg1 m ρ c)
theorem W3_arg2 (c : Dev nD) : (W3 m ρ c (Proc.devRef .tc main_arg2) : (⟨Cert.ReferenceIdeal.S1600000, .i32⟩ : BufTy).Contents (Elt Ideal)) = a2 m c :=
  (StableHlo.after_of_forall_not_mem (b := Proc.devRef .tc main_arg2) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg2 m ρ c)
theorem W3_arg5 (c : Dev nD) : (W3 m ρ c (Proc.devRef .tc main_arg5) : (⟨Cert.ReferenceIdeal.S64x32, .f32⟩ : BufTy).Contents (Elt Ideal)) = a5 m c :=
  (StableHlo.after_of_forall_not_mem (b := Proc.devRef .tc main_arg5) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg5 m ρ c)
theorem W3_arg6 (c : Dev nD) : (W3 m ρ c (Proc.devRef .tc main_arg6) : (⟨Cert.ReferenceIdeal.S32, .f32⟩ : BufTy).Contents (Elt Ideal)) = a6 m c :=
  (StableHlo.after_of_forall_not_mem (b := Proc.devRef .tc main_arg6) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg6 m ρ c)
theorem W3_arg7 (c : Dev nD) : (W3 m ρ c (Proc.devRef .tc main_arg7) : (⟨Cert.ReferenceIdeal.S32x10, .f32⟩ : BufTy).Contents (Elt Ideal)) = a7 m c :=
  (StableHlo.after_of_forall_not_mem (b := Proc.devRef .tc main_arg7) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg7 m ρ c)
theorem W3_arg8 (c : Dev nD) : (W3 m ρ c (Proc.devRef .tc main_arg8) : (⟨Cert.ReferenceIdeal.S10, .f32⟩ : BufTy).Contents (Elt Ideal)) = a8 m c :=
  (StableHlo.after_of_forall_not_mem (b := Proc.devRef .tc main_arg8) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg8 m ρ c)

/-! ## After region 1: the first layer's output -/

theorem W4_v38 (c : Dev nD) : (W4 m ρ c (Proc.devRef .tc main_v38) : (⟨Cert.ReferenceIdeal.S100000x64, .f32⟩ : BufTy).Contents (Elt Ideal)) = val_main_v44 (F := Ideal) (a0 m c) (a1 m c) (a2 m c) (a3 m c) (a4 m c) := by
  refine (W4_arr m ρ c 4).trans ((Region1.value (V3 m ρ) c).trans ?_)
  rw [show V3 m ρ c main_v36 = _ from W3_v36 m ρ c,
    show V3 m ρ c main_v23 = _ from W3_v23 m ρ c,
    show V3 m ρ c main_v7 = _ from W3_v7 m ρ c,
    show V3 m ρ c main_v37 = _ from W3_v37 m ρ c]
  exact (Cert.ReferenceIdeal.Layers.comb_v44 (a0 m c) (a1 m c) (a2 m c) (a3 m c) (a4 m c) shapeCasts_S100000_S100000x1 shapeCasts_S64_S1x64).symm
theorem W4_v22 (c : Dev nD) : (W4 m ρ c (Proc.devRef .tc main_v22) : (⟨Cert.ReferenceIdeal.S1600000, .f32⟩ : BufTy).Contents (Elt Ideal)) = val_main_v22 (F := Ideal) (a1 m c) (a2 m c) :=
  (W4_of_ne m ρ c main_v22 (by decide)).trans (W3_v22 m ρ c)
theorem W4_arg1 (c : Dev nD) : (W4 m ρ c (Proc.devRef .tc main_arg1) : (⟨Cert.ReferenceIdeal.S1600000, .i32⟩ : BufTy).Contents (Elt Ideal)) = a1 m c :=
  (W4_of_ne m ρ c main_arg1 (by decide)).trans (W3_arg1 m ρ c)
theorem W4_arg2 (c : Dev nD) : (W4 m ρ c (Proc.devRef .tc main_arg2) : (⟨Cert.ReferenceIdeal.S1600000, .i32⟩ : BufTy).Contents (Elt Ideal)) = a2 m c :=
  (W4_of_ne m ρ c main_arg2 (by decide)).trans (W3_arg2 m ρ c)
theorem W4_arg5 (c : Dev nD) : (W4 m ρ c (Proc.devRef .tc main_arg5) : (⟨Cert.ReferenceIdeal.S64x32, .f32⟩ : BufTy).Contents (Elt Ideal)) = a5 m c :=
  (W4_of_ne m ρ c main_arg5 (by decide)).trans (W3_arg5 m ρ c)
theorem W4_arg6 (c : Dev nD) : (W4 m ρ c (Proc.devRef .tc main_arg6) : (⟨Cert.ReferenceIdeal.S32, .f32⟩ : BufTy).Contents (Elt Ideal)) = a6 m c :=
  (W4_of_ne m ρ c main_arg6 (by decide)).trans (W3_arg6 m ρ c)
theorem W4_arg7 (c : Dev nD) : (W4 m ρ c (Proc.devRef .tc main_arg7) : (⟨Cert.ReferenceIdeal.S32x10, .f32⟩ : BufTy).Contents (Elt Ideal)) = a7 m c :=
  (W4_of_ne m ρ c main_arg7 (by decide)).trans (W3_arg7 m ρ c)
theorem W4_arg8 (c : Dev nD) : (W4 m ρ c (Proc.devRef .tc main_arg8) : (⟨Cert.ReferenceIdeal.S10, .f32⟩ : BufTy).Contents (Elt Ideal)) = a8 m c :=
  (W4_of_ne m ρ c main_arg8 (by decide)).trans (W3_arg8 m ρ c)
theorem W4_v7 (c : Dev nD) : (W4 m ρ c (Proc.devRef .tc main_v7) : (⟨Cert.ReferenceIdeal.S100000x1, .f32⟩ : BufTy).Contents (Elt Ideal)) = shapeCast S100000x1 (val_main_v7 (F := Ideal) (a2 m c)) shapeCasts_S100000_S100000x1 :=
  (W4_arr m ρ c 2).trans (((dat1 (V3 m ρ) c).arrAt_in 2 rfl _).trans ((A_eq1 (V3 m ρ) c 2).trans (W3_v7 m ρ c)))

/-! ## After region 2: the second layer's transformed features -/

theorem W5_v39 (c : Dev nD) : (W5 m ρ c (Proc.devRef .tc main_v39) : (⟨Cert.ReferenceIdeal.S100000x32, .f32⟩ : BufTy).Contents (Elt Ideal)) = val_main_v45 (F := Ideal) (a0 m c) (a1 m c) (a2 m c) (a3 m c) (a4 m c) (a5 m c) := by
  refine (W5_arr m ρ c 2).trans ((Region2.value (V4 m ρ) c).trans ?_)
  rw [show V4 m ρ c main_v38 = _ from W4_v38 m ρ c,
    show V4 m ρ c main_arg5 = _ from W4_arg5 m ρ c]
  exact (Cert.ReferenceIdeal.Layers.mm_v45 (a0 m c) (a1 m c) (a2 m c) (a3 m c) (a4 m c) (a5 m c)).symm
theorem W5_v7 (c : Dev nD) : (W5 m ρ c (Proc.devRef .tc main_v7) : (⟨Cert.ReferenceIdeal.S100000x1, .f32⟩ : BufTy).Contents (Elt Ideal)) = shapeCast S100000x1 (val_main_v7 (F := Ideal) (a2 m c)) shapeCasts_S100000_S100000x1 :=
  (W5_of_ne m ρ c main_v7 (by decide)).trans (W4_v7 m ρ c)
theorem W5_v22 (c : Dev nD) : (W5 m ρ c (Proc.devRef .tc main_v22) : (⟨Cert.ReferenceIdeal.S1600000, .f32⟩ : BufTy).Contents (Elt Ideal)) = val_main_v22 (F := Ideal) (a1 m c) (a2 m c) :=
  (W5_of_ne m ρ c main_v22 (by decide)).trans (W4_v22 m ρ c)
theorem W5_arg1 (c : Dev nD) : (W5 m ρ c (Proc.devRef .tc main_arg1) : (⟨Cert.ReferenceIdeal.S1600000, .i32⟩ : BufTy).Contents (Elt Ideal)) = a1 m c :=
  (W5_of_ne m ρ c main_arg1 (by decide)).trans (W4_arg1 m ρ c)
theorem W5_arg2 (c : Dev nD) : (W5 m ρ c (Proc.devRef .tc main_arg2) : (⟨Cert.ReferenceIdeal.S1600000, .i32⟩ : BufTy).Contents (Elt Ideal)) = a2 m c :=
  (W5_of_ne m ρ c main_arg2 (by decide)).trans (W4_arg2 m ρ c)
theorem W5_arg6 (c : Dev nD) : (W5 m ρ c (Proc.devRef .tc main_arg6) : (⟨Cert.ReferenceIdeal.S32, .f32⟩ : BufTy).Contents (Elt Ideal)) = a6 m c :=
  (W5_of_ne m ρ c main_arg6 (by decide)).trans (W4_arg6 m ρ c)
theorem W5_arg7 (c : Dev nD) : (W5 m ρ c (Proc.devRef .tc main_arg7) : (⟨Cert.ReferenceIdeal.S32x10, .f32⟩ : BufTy).Contents (Elt Ideal)) = a7 m c :=
  (W5_of_ne m ρ c main_arg7 (by decide)).trans (W4_arg7 m ρ c)
theorem W5_arg8 (c : Dev nD) : (W5 m ρ c (Proc.devRef .tc main_arg8) : (⟨Cert.ReferenceIdeal.S10, .f32⟩ : BufTy).Contents (Elt Ideal)) = a8 m c :=
  (W5_of_ne m ρ c main_arg8 (by decide)).trans (W4_arg8 m ρ c)

/-! ## After the third host stretch: the second layer's summed messages, the bias as a row -/

set_option maxHeartbeats 4000000 in
theorem W6_v52 (c : Dev nD) : (W6 m ρ c (Proc.devRef .tc main_v52) : (⟨Cert.ReferenceIdeal.S100000x32, .f32⟩ : BufTy).Contents (Elt Ideal)) = val_main_v80 (F := Ideal) (a0 m c) (a1 m c) (a2 m c) (a3 m c) (a4 m c) (a5 m c) := by
  show StableHlo.after hostOps3 (W5 m ρ c) (Proc.devRef .tc main_v52) = _
  after_results_simp
  rw [W5_v39 m ρ c, W5_v22 m ρ c, W5_arg1 m ρ c, W5_arg2 m ρ c]
  rw [← Cert.ReferenceIdeal.Layers.norm_again]
  rfl
theorem W6_v53 (c : Dev nD) : (W6 m ρ c (Proc.devRef .tc main_v53) : (⟨Cert.ReferenceIdeal.S1x32, .f32⟩ : BufTy).Contents (Elt Ideal)) = shapeCast S1x32 (a6 m c) shapeCasts_S32_S1x32 := by
  show StableHlo.after hostOps3 (W5 m ρ c) (Proc.devRef .tc main_v53) = _
  after_results
  rw [W5_arg6 m ρ c]
  rfl
theorem W6_v39 (c : Dev nD) : (W6 m ρ c (Proc.devRef .tc main_v39) : (⟨Cert.ReferenceIdeal.S100000x32, .f32⟩ : BufTy).Contents (Elt Ideal)) = val_main_v45 (F := Ideal) (a0 m c) (a1 m c) (a2 m c) (a3 m c) (a4 m c) (a5 m c) :=
  (StableHlo.after_of_forall_not_mem (b := Proc.devRef .tc main_v39) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W5_v39 m ρ c)
theorem W6_v7 (c : Dev nD) : (W6 m ρ c (Proc.devRef .tc main_v7) : (⟨Cert.ReferenceIdeal.S100000x1, .f32⟩ : BufTy).Contents (Elt Ideal)) = shapeCast S100000x1 (val_main_v7 (F := Ideal) (a2 m c)) shapeCasts_S100000_S100000x1 :=
  (StableHlo.after_of_forall_not_mem (b := Proc.devRef .tc main_v7) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W5_v7 m ρ c)
theorem W6_arg7 (c : Dev nD) : (W6 m ρ c (Proc.devRef .tc main_arg7) : (⟨Cert.ReferenceIdeal.S32x10, .f32⟩ : BufTy).Contents (Elt Ideal)) = a7 m c :=
  (StableHlo.after_of_forall_not_mem (b := Proc.devRef .tc main_arg7) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W5_arg7 m ρ c)
theorem W6_arg8 (c : Dev nD) : (W6 m ρ c (Proc.devRef .tc main_arg8) : (⟨Cert.ReferenceIdeal.S10, .f32⟩ : BufTy).Contents (Elt Ideal)) = a8 m c :=
  (StableHlo.after_of_forall_not_mem (b := Proc.devRef .tc main_arg8) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W5_arg8 m ρ c)

/-! ## After region 3: the second layer's output, the first result -/

theorem W7_v54 (c : Dev nD) : (W7 m ρ c (Proc.devRef .tc main_v54) : (⟨Cert.ReferenceIdeal.S100000x32, .f32⟩ : BufTy).Contents (Elt Ideal)) = val_main_v89 (F := Ideal) (a0 m c) (a1 m c) (a2 m c) (a3 m c) (a4 m c) (a5 m c) (a6 m c) := by
  refine (W7_arr m ρ c 4).trans ((Region3.value (V6 m ρ) c).trans ?_)
  rw [show V6 m ρ c main_v52 = _ from W6_v52 m ρ c,
    show V6 m ρ c main_v39 = _ from W6_v39 m ρ c,
    show V6 m ρ c main_v7 = _ from W6_v7 m ρ c,
    show V6 m ρ c main_v53 = _ from W6_v53 m ρ c]
  exact (Cert.ReferenceIdeal.Layers.comb_v89 (a0 m c) (a1 m c) (a2 m c) (a3 m c) (a4 m c) (a5 m c) (a6 m c) shapeCasts_S100000_S100000x1 shapeCasts_S32_S1x32).symm
theorem W7_arg7 (c : Dev nD) : (W7 m ρ c (Proc.devRef .tc main_arg7) : (⟨Cert.ReferenceIdeal.S32x10, .f32⟩ : BufTy).Contents (Elt Ideal)) = a7 m c :=
  (W7_of_ne m ρ c main_arg7 (by decide)).trans (W6_arg7 m ρ c)
theorem W7_arg8 (c : Dev nD) : (W7 m ρ c (Proc.devRef .tc main_arg8) : (⟨Cert.ReferenceIdeal.S10, .f32⟩ : BufTy).Contents (Elt Ideal)) = a8 m c :=
  (W7_of_ne m ρ c main_arg8 (by decide)).trans (W6_arg8 m ρ c)

/-! ## After the last host stretch: the head's bias as a row -/

theorem W8_v55 (c : Dev nD) : (W8 m ρ c (Proc.devRef .tc main_v55) : (⟨Cert.ReferenceIdeal.S1x10, .f32⟩ : BufTy).Contents (Elt Ideal)) = shapeCast S1x10 (a8 m c) shapeCasts_S10_S1x10 := by
  show StableHlo.after hostOps4 (W7 m ρ c) (Proc.devRef .tc main_v55) = _
  after_results
  rw [W7_arg8 m ρ c]
  rfl
theorem W8_v54 (c : Dev nD) : (W8 m ρ c (Proc.devRef .tc main_v54) : (⟨Cert.ReferenceIdeal.S100000x32, .f32⟩ : BufTy).Contents (Elt Ideal)) = val_main_v89 (F := Ideal) (a0 m c) (a1 m c) (a2 m c) (a3 m c) (a4 m c) (a5 m c) (a6 m c) :=
  (StableHlo.after_of_forall_not_mem (b := Proc.devRef .tc main_v54) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_v54 m ρ c)
theorem W8_arg7 (c : Dev nD) : (W8 m ρ c (Proc.devRef .tc main_arg7) : (⟨Cert.ReferenceIdeal.S32x10, .f32⟩ : BufTy).Contents (Elt Ideal)) = a7 m c :=
  (StableHlo.after_of_forall_not_mem (b := Proc.devRef .tc main_arg7) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_arg7 m ρ c)

/-! ## After region 4: the head's output, the second result; the first result kept -/

theorem W9_v56 (c : Dev nD) : (W9 m ρ c (Proc.devRef .tc main_v56) : (⟨Cert.ReferenceIdeal.S100000x10, .f32⟩ : BufTy).Contents (Elt Ideal)) = val_main_v93 (F := Ideal) (a0 m c) (a1 m c) (a2 m c) (a3 m c) (a4 m c) (a5 m c) (a6 m c) (a7 m c) (a8 m c) := by
  refine (W9_arr m ρ c 3).trans ((Region4.value (V8 m ρ) c).trans ?_)
  rw [show V8 m ρ c main_v54 = _ from W8_v54 m ρ c,
    show V8 m ρ c main_arg7 = _ from W8_arg7 m ρ c,
    show V8 m ρ c main_v55 = _ from W8_v55 m ρ c]
  exact (Cert.ReferenceIdeal.Layers.head_v93 (a0 m c) (a1 m c) (a2 m c) (a3 m c) (a4 m c) (a5 m c) (a6 m c) (a7 m c) (a8 m c) shapeCasts_S10_S1x10).symm
theorem W9_v54 (c : Dev nD) : (W9 m ρ c (Proc.devRef .tc main_v54) : (⟨Cert.ReferenceIdeal.S100000x32, .f32⟩ : BufTy).Contents (Elt Ideal)) = val_main_v89 (F := Ideal) (a0 m c) (a1 m c) (a2 m c) (a3 m c) (a4 m c) (a5 m c) (a6 m c) :=
  (W9_arr m ρ c 0).trans (((dat4 (V8 m ρ) c).arrAt_in 0 rfl _).trans ((A_eq4 (V8 m ρ) c 0).trans (W8_v54 m ρ c)))

end Cert.KernelIdeal.Glue

end
-- ==== Proof.lean ====
/-
  A two-layer graph convolution with a linear head: the kernel program against the reference, on the extended reals.

  Both programs compute, from node features x [100000, 128], edge lists src and dst [1600000] and the layers' weights
  and biases: the degree of every node as a scatter-add of ones at dst, plus one; d = the inverse square root of the
  degrees; the edge weights d[src] · d[dst]; and per layer, with h = (input) · W, the messages h[src] scaled by the edge
  weights and scatter-added at dst into agg, then max((agg + h · (d · d)) + b, 0); last, the head h2 · Wfc + bfc. The
  results are the second layer's output and the head's output.

  The reference does all of it on the host. The kernel program does the gathers, scatter-adds and the degree chain on
  the host, by the same operations on the same values, and the three matrix products and the two combine steps in five
  regions over row blocks of 5000 nodes. At the exact reals a region's matrix product (after a change of float format,
  which is the identity) into a zero accumulator and the host's product are the same sum, the row blocks tile the
  arrays, and the combine step is entry by entry the same expression with the same grouping; no law that needs finite
  entries is used, so the precondition is never opened.

  Modules: Spec (the layer functions), KPay (each body is its layer function on blocks), Region0 … Region4 (each
  region's result array is its layer function of the arrays it finds), RLayers (the reference's stages are the layer
  functions), KRun (the kernel program's run with every array named), Glue (the arrays at each segment boundary as the
  reference's stage functions of the arguments). Here: the three frames, the idealization's ledger (empty), and the
  value claim from the two runs.
-/
import proofs.«135825_j5686536700269_1_alg».proof.Defs
import proofs.«135825_j5686536700269_1_alg».proof.Proof.Gen.Kernel
import proofs.«135825_j5686536700269_1_alg».proof.Proof.Gen.Kernel.Frame
import proofs.«135825_j5686536700269_1_alg».proof.Proof.Gen.KernelIdeal
import proofs.«135825_j5686536700269_1_alg».proof.Proof.Gen.KernelIdeal.Frame
import proofs.«135825_j5686536700269_1_alg».proof.Proof.Gen.ReferenceIdeal
import proofs.«135825_j5686536700269_1_alg».proof.Proof.Gen.ReferenceIdeal.Run
import proofs.«135825_j5686536700269_1_alg».proof.Proof.Gen.ReferenceIdeal.Read
import proofs.«135825_j5686536700269_1_alg».proof.Proof.Gen.Pre_finite_inputs
import proofs.«135825_j5686536700269_1_alg».proof.Proof.KRun
import proofs.«135825_j5686536700269_1_alg».proof.Proof.Glue
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_k : Cert.frame_Kernel :=
  fun m ρ _ => Cert.Kernel.Gen.frame m ρ

/-- So does the kernel program read at the exact reals. -/
theorem frame_ki : Cert.frame_KernelIdeal :=
  fun m ρ _ => Cert.KernelIdeal.Gen.frame m ρ

/-- The reference is a line of host operations: its run, with the two results dropped. -/
theorem frame_ri : Cert.frame_ReferenceIdeal :=
  fun m ρ _ => (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- Both programs end with the second layer's output and the head's output at the reference's stage functions of the
    arguments: the kernel program by its arrays at the last segment boundary, the reference by its run. -/
theorem algebraic : Cert.algebraic_KernelIdeal_ReferenceIdeal := by
  intro m ρ m' ρ' _ hagree
  refine ⟨fun c => Cert.ReferenceIdeal.Read.val_main_v89 (F := Ideal) (Cert.KernelIdeal.Glue.a0 m c) (Cert.KernelIdeal.Glue.a1 m c) (Cert.KernelIdeal.Glue.a2 m c) (Cert.KernelIdeal.Glue.a3 m c) (Cert.KernelIdeal.Glue.a4 m c) (Cert.KernelIdeal.Glue.a5 m c) (Cert.KernelIdeal.Glue.a6 m c),
    fun c => Cert.ReferenceIdeal.Read.val_main_v93 (F := Ideal) (Cert.KernelIdeal.Glue.a0 m c) (Cert.KernelIdeal.Glue.a1 m c) (Cert.KernelIdeal.Glue.a2 m c) (Cert.KernelIdeal.Glue.a3 m c) (Cert.KernelIdeal.Glue.a4 m c) (Cert.KernelIdeal.Glue.a5 m c) (Cert.KernelIdeal.Glue.a6 m c) (Cert.KernelIdeal.Glue.a7 m c) (Cert.KernelIdeal.Glue.a8 m c), ?_, ?_⟩
  · exact (θ_run Cert.KernelIdeal.defs _ _).mono (fun r h c =>
      ⟨(h c Cert.KernelIdeal.main_v54 (by decide)).trans (Cert.KernelIdeal.Glue.W9_v54 m ρ c),
        (h c Cert.KernelIdeal.main_v56 (by decide)).trans (Cert.KernelIdeal.Glue.W9_v56 m ρ c),
        (h c Cert.KernelIdeal.main_arg0 (by decide)).trans (Cert.KernelIdeal.Gen.W9_main_arg0 m ρ c),
        (h c Cert.KernelIdeal.main_arg1 (by decide)).trans (Cert.KernelIdeal.Gen.W9_main_arg1 m ρ c),
        (h c Cert.KernelIdeal.main_arg2 (by decide)).trans (Cert.KernelIdeal.Gen.W9_main_arg2 m ρ c),
        (h c Cert.KernelIdeal.main_arg3 (by decide)).trans (Cert.KernelIdeal.Gen.W9_main_arg3 m ρ c),
        (h c Cert.KernelIdeal.main_arg4 (by decide)).trans (Cert.KernelIdeal.Gen.W9_main_arg4 m ρ c),
        (h c Cert.KernelIdeal.main_arg5 (by decide)).trans (Cert.KernelIdeal.Gen.W9_main_arg5 m ρ c),
        (h c Cert.KernelIdeal.main_arg6 (by decide)).trans (Cert.KernelIdeal.Gen.W9_main_arg6 m ρ c),
        (h c Cert.KernelIdeal.main_arg7 (by decide)).trans (Cert.KernelIdeal.Gen.W9_main_arg7 m ρ c),
        (h c Cert.KernelIdeal.main_arg8 (by decide)).trans (Cert.KernelIdeal.Gen.W9_main_arg8 m ρ c)⟩)
      (Cert.KernelIdeal.Hand.run_all (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8⟩ := hagree c
      rw [Cert.ReferenceIdeal.Read.val_main_v89_eq, e0, e1, e2, e3, e4, e5, e6]
    · obtain ⟨e0, e1, e2, e3, e4, e5, e6, e7, e8⟩ := hagree c
      rw [Cert.ReferenceIdeal.Read.val_main_v93_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
